-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x512 : Shape := ⟨3, ![32, 2048, 512]⟩
abbrev S64x512 : Shape := ⟨2, ![64, 512]⟩
abbrev S64 : Shape := ⟨1, ![64]⟩
abbrev S_ : Shape := ⟨0, ![]⟩

class Facts : Prop where
  bcast_S_S32x2048x512 : S_.BroadcastsInDim S32x2048x512 (![] : Fin 0 → Fin S32x2048x512.rank)
  reducesTo_S32x2048x512_S_d0_1_2 : S32x2048x512.ReducesTo [0, 1, 2] S_
  h_S_ : 0 < S_.numel
  bcast_S_S64x512 : S_.BroadcastsInDim S64x512 (![] : Fin 0 → Fin S64x512.rank)
  reducesTo_S64x512_S_d0_1 : S64x512.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S32x2048x512 .f32) (main_arg1 : FVec F S64x512 .f32) (main_arg2 : FVec F S64x512 .f32) (main_arg3 : FVec F S64 .f32) : IVec S_ 1 :=
  let main_v0 : FVec F S32x2048x512 .f32 := Host.absf main_arg0
  let main_cst : FVec F S_ .f32 := constant S_ .f32 0x7F800000#32
  let main_v1 : FVec F S32x2048x512 .f32 := broadcastInDim S32x2048x512 ![] bcast_S_S32x2048x512 main_cst
  let main_v2 : IVec S32x2048x512 1 := cmpf .olt main_v0 main_v1
  let main_c : IVec S_ 1 := constantI S_ 1 1#1
  let main_v3 : IVec S_ 1 := (fun x v => Host.reduce IntOp.andi x v reducesTo_S32x2048x512_S_d0_1_2 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S64x512 .f32 := Host.absf main_arg2
  let main_cst_2 : FVec F S_ .f32 := constant S_ .f32 0x7F800000#32
  let main_v10 : FVec F S64x512 .f32 := broadcastInDim S64x512 ![] bcast_S_S64x512 main_cst_2
  let main_v11 : IVec S64x512 1 := cmpf .olt main_v9 main_v10
  let main_c_3 : IVec S_ 1 := constantI S_ 1 1#1
  let main_v12 : IVec S_ 1 := (fun x v => Host.reduce IntOp.andi x v reducesTo_S64x512_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S32x2048x512 : Shape := ⟨3, ![32, 2048, 512]⟩
abbrev S64x512 : Shape := ⟨2, ![64, 512]⟩
abbrev S64 : Shape := ⟨1, ![64]⟩
abbrev S64x1 : Shape := ⟨2, ![64, 1]⟩
abbrev S32x64x512 : Shape := ⟨3, ![32, 64, 512]⟩
abbrev S2x2048x512 : Shape := ⟨3, ![2, 2048, 512]⟩
abbrev S2x64x512 : Shape := ⟨3, ![2, 64, 512]⟩
abbrev S1x2048x512 : Shape := ⟨3, ![1, 2048, 512]⟩
abbrev S2048x512 : Shape := ⟨2, ![2048, 512]⟩
abbrev S64x2048 : Shape := ⟨2, ![64, 2048]⟩
abbrev S2048 : Shape := ⟨1, ![2048]⟩
abbrev S1x2048 : Shape := ⟨2, ![1, 2048]⟩
abbrev S1 : Shape := ⟨1, ![1]⟩
abbrev S1x1 : Shape := ⟨2, ![1, 1]⟩
abbrev S1x64x512 : Shape := ⟨3, ![1, 64, 512]⟩
abbrev S32x32768 : Shape := ⟨2, ![32, 32768]⟩

abbrev nBuf : Space → Nat
  | .hbm => 7
  | .vmem => 7
  | .smem => 0
  | _ => 0

abbrev bufTy : (tb : Table) → Fin (tcTables nBuf tb) → BufTy
  | .hbm, ⟨0, _⟩ => ⟨S32x2048x512, .f32⟩
  | .hbm, ⟨1, _⟩ => ⟨S64x512, .f32⟩
  | .hbm, ⟨2, _⟩ => ⟨S64x512, .f32⟩
  | .hbm, ⟨3, _⟩ => ⟨S64, .f32⟩
  | .hbm, ⟨4, _⟩ => ⟨S64x1, .f32⟩
  | .hbm, ⟨5, _⟩ => ⟨S32x64x512, .f32⟩
  | .hbm, ⟨6, _⟩ => ⟨S32x32768, .f32⟩
  | .local _ .vmem, ⟨0, _⟩ => ⟨S2x2048x512, .f32⟩
  | .local _ .vmem, ⟨1, _⟩ => ⟨S2x2048x512, .f32⟩
  | .local _ .vmem, ⟨2, _⟩ => ⟨S64x512, .f32⟩
  | .local _ .vmem, ⟨3, _⟩ => ⟨S64x1, .f32⟩
  | .local _ .vmem, ⟨4, _⟩ => ⟨S64x512, .f32⟩
  | .local _ .vmem, ⟨5, _⟩ => ⟨S2x64x512, .f32⟩
  | .local _ .vmem, ⟨6, _⟩ => ⟨S2x64x512, .f32⟩
  | _, _ => ⟨S32x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S64_S64x1 : S64.ShapeCasts S64x1
  inb_S64x512_S64x512_0_0 : ∀ a, (![0, 0] : Fin 2 → Nat) a + S64x512.size a ≤ S64x512.size a
  h_S64x512 : 0 < S64x512.numel
  inb_S64x1_S64x1_0_0 : ∀ a, (![0, 0] : Fin 2 → Nat) a + S64x1.size a ≤ S64x1.size a
  h_S64x1 : 0 < S64x1.numel
  shapeCasts_S64x1_S64x1 : S64x1.ShapeCasts S64x1
  bitsLt_bf16_f32 : FTy.bits .bf16 < FTy.bits .f32
  inb_S2x2048x512_S1x2048x512_0_0_0 : ∀ a, (![0, 0, 0] : Fin 3 → Nat) a + S1x2048x512.size a ≤ S2x2048x512.size a
  h_S1x2048x512 : 0 < S1x2048x512.numel
  shapeCasts_S1x2048x512_S2048x512 : S1x2048x512.ShapeCasts S2048x512
  broadcasts_S64x1_S64x2048 : S64x1.Broadcasts S64x2048
  reduces_S64x2048_S2048 : S64x2048.Reduces [0] S2048
  shapeCasts_S2048_S1x2048 : S2048.ShapeCasts S1x2048
  broadcasts_S1x2048_S64x2048 : S1x2048.Broadcasts S64x2048
  reduces_S64x2048_S64 : S64x2048.Reduces [1] S64
  broadcasts_S64x1_S64x512 : S64x1.Broadcasts S64x512
  reduces_S64x512_S64 : S64x512.Reduces [1] S64
  reduces_S64x1_S1 : S64x1.Reduces [0] S1
  shapeCasts_S1_S1x1 : S1.ShapeCasts S1x1
  broadcasts_S1x1_S64x512 : S1x1.Broadcasts S64x512
  inb_S2x64x512_S1x64x512_0_0_0 : ∀ a, (![0, 0, 0] : Fin 3 → Nat) a + S1x64x512.size a ≤ S2x64x512.size a
  h_S1x64x512 : 0 < S1x64x512.numel
  shapeCasts_S1x64x512_S64x512 : S1x64x512.ShapeCasts S64x512
  shapeCasts_S64x512_S1x64x512 : S64x512.ShapeCasts S1x64x512
  inb_S2x2048x512_S1x2048x512_1_0_0 : ∀ a, (![1, 0, 0] : Fin 3 → Nat) a + S1x2048x512.size a ≤ S2x2048x512.size a
  inb_S2x64x512_S1x64x512_1_0_0 : ∀ a, (![1, 0, 0] : Fin 3 → Nat) a + S1x64x512.size a ≤ S2x64x512.size a
  shapeCasts_S32x64x512_S32x32768 : S32x64x512.ShapeCasts S32x32768
  dot_S64x512_S2048x512_S64x2048_1_1_0_0_n_n_wf : DotDims.WF S64x512 S2048x512 S64x2048 [1] [1] [0] [0] [] []
  dot_S64x2048_S2048x512_S64x512_1_0_0_1_n_n_wf : DotDims.WF S64x2048 S2048x512 S64x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x2048x512.size a ≤ S32x2048x512.size a
  hwx0_0 : ∀ i : grid0.Coords, EltTy.bits .f32 = 32 ∨ (Rect.block (s := S32x2048x512) S2x2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x512.size a
  hwx0_1 : ∀ i : grid0.Coords, EltTy.bits .f32 = 32 ∨ (Rect.block (s := S64x512) S64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x512.size a ≤ S64x512.size a
  hwx0_3 : ∀ i : grid0.Coords, EltTy.bits .f32 = 32 ∨ (Rect.block (s := S64x512) S64x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x64x512.size a ≤ S32x64x512.size a
  hwx0_4 : ∀ i : grid0.Coords, EltTy.bits .f32 = 32 ∨ (Rect.block (s := S32x64x512) S2x64x512.size (cc0_transform_4 i) (hinb0_4 i)).WholeWords (EltTy.packing .f32)

variable [Facts₀]

def dot_S64x512_S2048x512_S64x2048_1_1_0_0_n_n : DotDims S64x512 S2048x512 S64x2048 where
  lhsContracting := [1]
  rhsContracting := [1]
  lhsNonContracting := [0]
  rhsNonContracting := [0]
  lhsBatch := []
  rhsBatch := []
  wf := dot_S64x512_S2048x512_S64x2048_1_1_0_0_n_n_wf
def dot_S64x2048_S2048x512_S64x512_1_0_0_1_n_n : DotDims S64x2048 S2048x512 S64x512 where
  lhsContracting := [1]
  rhsContracting := [0]
  lhsNonContracting := [0]
  rhsNonContracting := [1]
  lhsBatch := []
  rhsBatch := []
  wf := dot_S64x2048_S2048x512_S64x512_1_0_0_1_n_n_wf

abbrev win0_0 : Pipeline.Window sig grid0 :=
  Pipeline.Window.ofSpec (Memref.whole main_arg0) S2x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S64x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S2x64x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x2048x512 : Shape := ⟨3, ![32, 2048, 512]⟩
abbrev S64x512 : Shape := ⟨2, ![64, 512]⟩
abbrev S64 : Shape := ⟨1, ![64]⟩
abbrev S64x32x2048 : Shape := ⟨3, ![64, 32, 2048]⟩
abbrev S32x64x2048 : Shape := ⟨3, ![32, 64, 2048]⟩
abbrev S1x64x1 : Shape := ⟨3, ![1, 64, 1]⟩
abbrev S_ : Shape := ⟨0, ![]⟩
abbrev S32x2048 : Shape := ⟨2, ![32, 2048]⟩
abbrev S32x1x2048 : Shape := ⟨3, ![32, 1, 2048]⟩
abbrev S32x64x512 : Shape := ⟨3, ![32, 64, 512]⟩
abbrev S32x64 : Shape := ⟨2, ![32, 64]⟩
abbrev S32x64x1 : Shape := ⟨3, ![32, 64, 1]⟩
abbrev S1x64x512 : Shape := ⟨3, ![1, 64, 512]⟩
abbrev S32x32768 : Shape := ⟨2, ![32, 32768]⟩
abbrev S32 : Shape := ⟨1, ![32]⟩
abbrev S32x1 : Shape := ⟨2, ![32, 1]⟩

abbrev nBuf : Space → Nat
  | .hbm => 53
  | .vmem => 0
  | .smem => 0
  | _ => 0

abbrev bufTy : (tb : Table) → Fin (tcTables nBuf tb) → BufTy
  | .hbm, ⟨0, _⟩ => ⟨S32x2048x512, .f32⟩
  | .hbm, ⟨1, _⟩ => ⟨S64x512, .f32⟩
  | .hbm, ⟨2, _⟩ => ⟨S64x512, .f32⟩
  | .hbm, ⟨3, _⟩ => ⟨S64, .f32⟩
  | .hbm, ⟨4, _⟩ => ⟨S64x32x2048, .f32⟩
  | .hbm, ⟨5, _⟩ => ⟨S32x64x2048, .f32⟩
  | .hbm, ⟨6, _⟩ => ⟨S1x64x1, .f32⟩
  | .hbm, ⟨7, _⟩ => ⟨S32x64x2048, .f32⟩
  | .hbm, ⟨8, _⟩ => ⟨S32x64x2048, .f32⟩
  | .hbm, ⟨9, _⟩ => ⟨S_, .f32⟩
  | .hbm, ⟨10, _⟩ => ⟨S32x2048, .f32⟩
  | .hbm, ⟨11, _⟩ => ⟨S_, .f32⟩
  | .hbm, ⟨12, _⟩ => ⟨S32x2048, .f32⟩
  | .hbm, ⟨13, _⟩ => ⟨S32x2048, .f32⟩
  | .hbm, ⟨14, _⟩ => ⟨S32x1x2048, .f32⟩
  | .hbm, ⟨15, _⟩ => ⟨S32x64x2048, .f32⟩
  | .hbm, ⟨16, _⟩ => ⟨S32x64x2048, .f32⟩
  | .hbm, ⟨17, _⟩ => ⟨S32x64x2048, .f32⟩
  | .hbm, ⟨18, _⟩ => ⟨S_, .f32⟩
  | .hbm, ⟨19, _⟩ => ⟨S32x2048, .f32⟩
  | .hbm, ⟨20, _⟩ => ⟨S32x1x2048, .f32⟩
  | .hbm, ⟨21, _⟩ => ⟨S32x64x2048, .f32⟩
  | .hbm, ⟨22, _⟩ => ⟨S32x64x2048, .f32⟩
  | .hbm, ⟨23, _⟩ => ⟨S32x64x512, .f32⟩
  | .hbm, ⟨24, _⟩ => ⟨S_, .f32⟩
  | .hbm, ⟨25, _⟩ => ⟨S32x64, .f32⟩
  | .hbm, ⟨26, _⟩ => ⟨S32x64x1, .f32⟩
  | .hbm, ⟨27, _⟩ => ⟨S1x64x512, .f32⟩
  | .hbm, ⟨28, _⟩ => ⟨S32x64x512, .f32⟩
  | .hbm, ⟨29, _⟩ => ⟨S32x64x512, .f32⟩
  | .hbm, ⟨30, _⟩ => ⟨S32x64x512, .f32⟩
  | .hbm, ⟨31, _⟩ => ⟨S32x64x512, .f32⟩
  | .hbm, ⟨32, _⟩ => ⟨S32x64x512, .f32⟩
  | .hbm, ⟨33, _⟩ => ⟨S_, .f32⟩
  | .hbm, ⟨34, _⟩ => ⟨S32x64, .f32⟩
  | .hbm, ⟨35, _⟩ => ⟨S32x64x1, .f32⟩
  | .hbm, ⟨36, _⟩ => ⟨S32x64x1, .f32⟩
  | .hbm, ⟨37, _⟩ => ⟨S_, .f32⟩
  | .hbm, ⟨38, _⟩ => ⟨S32x64x1, .f32⟩
  | .hbm, ⟨39, _⟩ => ⟨S32x64x1, .f32⟩
  | .hbm, ⟨40, _⟩ => ⟨S32x64x512, .f32⟩
  | .hbm, ⟨41, _⟩ => ⟨S32x64x512, .f32⟩
  | .hbm, ⟨42, _⟩ => ⟨S32x32768, .f32⟩
  | .hbm, ⟨43, _⟩ => ⟨S32x32768, .f32⟩
  | .hbm, ⟨44, _⟩ => ⟨S_, .f32⟩
  | .hbm, ⟨45, _⟩ => ⟨S32, .f32⟩
  | .hbm, ⟨46, _⟩ => ⟨S32x1, .f32⟩
  | .hbm, ⟨47, _⟩ => ⟨S32x1, .f32⟩
  | .hbm, ⟨48, _⟩ => ⟨S_, .f32⟩
  | .hbm, ⟨49, _⟩ => ⟨S32x1, .f32⟩
  | .hbm, ⟨50, _⟩ => ⟨S32x1, .f32⟩
  | .hbm, ⟨51, _⟩ => ⟨S32x32768, .f32⟩
  | .hbm, ⟨52, _⟩ => ⟨S32x32768, .f32⟩
  | _, _ => ⟨S32x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call0_v0 : Ref sig .tc := ⟨.hbm, 32, rfl⟩
abbrev main_call0_cst : Ref sig .tc := ⟨.hbm, 33, rfl⟩
abbrev main_call0_v1 : Ref sig .tc := ⟨.hbm, 34, rfl⟩
abbrev main_call0_v2 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_call1_v0 : Ref sig .tc := ⟨.hbm, 43, rfl⟩
abbrev main_call1_cst : Ref sig .tc := ⟨.hbm, 44, rfl⟩
abbrev main_call1_v1 : Ref sig .tc := ⟨.hbm, 45, rfl⟩
abbrev main_call1_v2 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]

class Facts₀ : Prop where
  transposes_S64x32x2048_S32x64x2048_1_0_2 : S64x32x2048.Transposes [1, 0, 2] S32x64x2048
  bcast_S64_S1x64x1_1 : S64.BroadcastsInDim S1x64x1 (![1] : Fin 1 → Fin S1x64x1.rank)
  bcast_S1x64x1_S32x64x2048_0_1_2 : S1x64x1.BroadcastsInDim S32x64x2048 (![0, 1, 2] : Fin 3 → Fin S32x64x2048.rank)
  reducesTo_S32x64x2048_S32x2048_d1 : S32x64x2048.ReducesTo [1] S32x2048
  h_S_ : 0 < S_.numel
  bcast_S_S32x2048 : S_.BroadcastsInDim S32x2048 (![] : Fin 0 → Fin S32x2048.rank)
  bcast_S32x2048_S32x1x2048_0_2 : S32x2048.BroadcastsInDim S32x1x2048 (![0, 2] : Fin 2 → Fin S32x1x2048.rank)
  bcast_S32x1x2048_S32x64x2048_0_1_2 : S32x1x2048.BroadcastsInDim S32x64x2048 (![0, 1, 2] : Fin 3 → Fin S32x64x2048.rank)
  reducesTo_S32x64x2048_S32x64_d2 : S32x64x2048.ReducesTo [2] S32x64
  bcast_S32x64_S32x64x1_0_1 : S32x64.BroadcastsInDim S32x64x1 (![0, 1] : Fin 2 → Fin S32x64x1.rank)
  bcast_S64x512_S1x64x512_1_2 : S64x512.BroadcastsInDim S1x64x512 (![1, 2] : Fin 2 → Fin S1x64x512.rank)
  bcast_S32x64x1_S32x64x512_0_1_2 : S32x64x1.BroadcastsInDim S32x64x512 (![0, 1, 2] : Fin 3 → Fin S32x64x512.rank)
  bcast_S1x64x512_S32x64x512_0_1_2 : S1x64x512.BroadcastsInDim S32x64x512 (![0, 1, 2] : Fin 3 → Fin S32x64x512.rank)
  reducesTo_S32x64x512_S32x64_d2 : S32x64x512.ReducesTo [2] S32x64
  bcast_S_S32x64x1 : S_.BroadcastsInDim S32x64x1 (![] : Fin 0 → Fin S32x64x1.rank)
  shapeCasts_S32x64x512_S32x32768 : S32x64x512.ShapeCasts S32x32768
  reducesTo_S32x32768_S32_d1 : S32x32768.ReducesTo [1] S32
  bcast_S32_S32x1_0 : S32.BroadcastsInDim S32x1 (![0] : Fin 1 → Fin S32x1.rank)
  bcast_S_S32x1 : S_.BroadcastsInDim S32x1 (![] : Fin 0 → Fin S32x1.rank)
  bcast_S32x1_S32x32768_0_1 : S32x1.BroadcastsInDim S32x32768 (![0, 1] : Fin 2 → Fin S32x32768.rank)
  dot_S64x512_S32x2048x512_S64x32x2048_1_2_0_01_n_n_wf : DotDims.WF S64x512 S32x2048x512 S64x32x2048 [1] [2] [0] [0, 1] [] []
  dot_S32x64x2048_S32x2048x512_S32x64x512_2_1_1_2_0_0_wf : DotDims.WF S32x64x2048 S32x2048x512 S32x64x512 [2] [1] [1] [2] [0] [0]

variable [Facts₀]

def dot_S64x512_S32x2048x512_S64x32x2048_1_2_0_01_n_n : DotDims S64x512 S32x2048x512 S64x32x2048 where
  lhsContracting := [1]
  rhsContracting := [2]
  lhsNonContracting := [0]
  rhsNonContracting := [0, 1]
  lhsBatch := []
  rhsBatch := []
  wf := dot_S64x512_S32x2048x512_S64x32x2048_1_2_0_01_n_n_wf
def dot_S32x64x2048_S32x2048x512_S32x64x512_2_1_1_2_0_0 : DotDims S32x64x2048 S32x2048x512 S32x64x512 where
  lhsContracting := [2]
  rhsContracting := [1]
  lhsNonContracting := [1]
  rhsNonContracting := [2]
  lhsBatch := [0]
  rhsBatch := [0]
  wf := dot_S32x64x2048_S32x2048x512_S32x64x512_2_1_1_2_0_0_wf

class Facts : Prop extends Facts₀ where

variable [Facts]
-- ==== Proof.LibFlatSum.lean ====
/-
  Two general facts about flattened and repeated arrays.

  • A sum over the m·n positions of a flattened [m, n] array, position j standing for row j / n and column j % n, is the
    sum over the rows of the sums over the columns. Only a commutative additive monoid is needed: no subtraction, no
    finiteness of the summands.
  • A [1, 1] array broadcast to [a, b] reads its one entry everywhere.
-/
import Mathlib.Algebra.BigOperators.Fin
import Mathlib.Logic.Equiv.Fin.Basic
import Idealize.ShloMosaic.Lib.Pipeline.Value
import Idealize.ShloMosaic.Lib.ValueIdx

open scoped BigOperators

namespace Cert.LibFlatSum

open Idealize.ShloMosaic Idealize.ShloMosaic.ValueIdx

theorem div_lt_of_lt_mul {m n j : ℕ} (h : j < m * n) : j / n < m :=
  Nat.div_lt_of_lt_mul (by rwa [Nat.mul_comm] at h)

theorem mod_lt_of_lt_mul {m n j : ℕ} (h : j < m * n) : j % n < n :=
  Nat.mod_lt _ (Nat.pos_of_ne_zero fun hn => by subst hn; simp at h)

/-- A sum over the flattened positions of an [m, n] array is the sum over rows of the sums over columns. -/
theorem sum_flat_mul {M : Type*} [AddCommMonoid M] (m n : ℕ) (f : Fin m → Fin n → M) :
    ∑ j : Fin (m * n), f ⟨j.val / n, div_lt_of_lt_mul j.isLt⟩ ⟨j.val % n, mod_lt_of_lt_mul j.isLt⟩
      = ∑ k : Fin m, ∑ d : Fin n, f k d := by
  rw [← Equiv.sum_comp (finProdFinEquiv (m := m) (n := n))
    (fun j : Fin (m * n) => f ⟨j.val / n, div_lt_of_lt_mul j.isLt⟩ ⟨j.val % n, mod_lt_of_lt_mul j.isLt⟩),
    Fintype.sum_prod_type]
  refine Finset.sum_congr rfl fun k _ => Finset.sum_congr rfl fun d _ => ?_
  have hd := d.isLt
  have e1 : (d.val + n * k.val) / n = k.val := by
    rw [Nat.add_mul_div_left _ _ (by omega : 0 < n), Nat.div_eq_of_lt hd, Nat.zero_add]
  have e2 : (d.val + n * k.val) % n = d.val := by
    rw [Nat.add_mul_mod_self_left, Nat.mod_eq_of_lt hd]
  congr 1
  · exact Fin.ext e1
  · exact Fin.ext e2

/-- A [1, 1] array broadcast to [a, b] reads, at (p, q), its one entry. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

end Cert.LibFlatSum
-- ==== Proof.Spec.lean ====
/-
  The function both programs compute, over the extended reals, written once.

  For one batch entry, with frames X (2048 rows of 512 features), cluster weights w, biases β and centres c
  (64 clusters):
    logit k t = (∑ d, w k d · X t d) + β k
    top t     = the largest logit at frame t (a maximum taken from −∞, then once more against −∞)
    ex k t    = exp (logit k t − top t),   den t = ∑ k, ex k t,   asg k t = ex k t / den t      (a softmax over clusters)
    vlad k d  = (∑ t, asg k t · X t d) − (∑ t, asg k t) · c k d
    rowNorm k = max (√(∑ d, vlad k d²)) ε,  vn k d = vlad k d / rowNorm k                      (each cluster's row normalised)
    total     = max (√(∑ k, ∑ d, vn k d²)) ε,  out k d = vn k d / total                        (the whole descriptor normalised)
  The result is the 32 descriptors, each flattened to 64·512 = 32768 entries: entry j of batch b is out (j / 512) (j % 512).
  Also here: a sum over the 32768 flattened positions is the double sum over clusters and features.
-/
import Idealize.ShloMosaic.PureOps.Ideal
import Idealize.ShloMosaic.Lib.ValueIdx
import proofs.«126308_j65575560675841_2_alg».proof.Proof.LibFlatSum

open scoped BigOperators

noncomputable section

namespace Cert.NetVlad

open Idealize.ShloMosaic Idealize.ShloMosaic.ValueIdx

/-- The value of the pattern of −∞. -/
def ninf : EReal := Ideal.ofBits .f32 0xFF800000#32
/-- The value of the pattern both programs clamp a norm with (the float nearest 1e-12). -/
def eps : EReal := Ideal.ofBits .f32 0x2B8CBCCC#32

section OneBatch

variable (w c : Fin 64 → Fin 512 → EReal) (β : Fin 64 → EReal) (X : Fin 2048 → Fin 512 → EReal)

def logit (k : Fin 64) (t : Fin 2048) : EReal := (∑ d : Fin 512, w k d * X t d) + β k

def top (t : Fin 2048) : EReal :=
  max ninf ((Finset.univ : Finset (Fin 64)).fold max ninf (fun k => logit w β X k t))

def ex (k : Fin 64) (t : Fin 2048) : EReal := Ideal.exp (logit w β X k t - top w β X t)

def den (t : Fin 2048) : EReal := ∑ k : Fin 64, ex w β X k t

def asg (k : Fin 64) (t : Fin 2048) : EReal := Ideal.div (ex w β X k t) (den w β X t)

def vlad (k : Fin 64) (d : Fin 512) : EReal :=
  (∑ t : Fin 2048, asg w β X k t * X t d) - (∑ t : Fin 2048, asg w β X k t) * c k d

def rowNorm (k : Fin 64) : EReal :=
  max (Ideal.sqrt (∑ d : Fin 512, vlad w c β X k d * vlad w c β X k d)) eps

def vn (k : Fin 64) (d : Fin 512) : EReal := Ideal.div (vlad w c β X k d) (rowNorm w c β X k)

def total : EReal :=
  max (Ideal.sqrt (∑ k : Fin 64, ∑ d : Fin 512, vn w c β X k d * vn w c β X k d)) eps

def out (k : Fin 64) (d : Fin 512) : EReal := Ideal.div (vn w c β X k d) (total w c β X)

end OneBatch

/-- A [64, 512] array by coordinates. -/
abbrev mat (a : (⟨2, ![64, 512]⟩ : Shape).Idx → EReal) : Fin 64 → Fin 512 → EReal := fun k d => a (ix2 k d)
/-- A [64] array by its coordinate. -/
abbrev vec (a : (⟨1, ![64]⟩ : Shape).Idx → EReal) : Fin 64 → EReal := fun k => a (ix1 k)
/-- Batch entry b of a [32, 2048, 512] array by coordinates. -/
abbrev frames (a : (⟨3, ![32, 2048, 512]⟩ : Shape).Idx → EReal) (b : Fin 32) : Fin 2048 → Fin 512 → EReal :=
  fun t d => a (ix3 b t d)

/-- The 32 descriptors as a [32, 64, 512] array (x, centres, weights, biases in the programs' argument order). -/
def H (a0 : (⟨3, ![32, 2048, 512]⟩ : Shape).Idx → EReal) (a1 a2 : (⟨2, ![64, 512]⟩ : Shape).Idx → EReal)
    (a3 : (⟨1, ![64]⟩ : Shape).Idx → EReal) : (⟨3, ![32, 64, 512]⟩ : Shape).Idx → EReal :=
  fun i => out (mat a2) (mat a1) (vec a3) (frames a0 (i 0)) (i 1) (i 2)

theorem flat_lt (j : Fin 32768) : j.val / 512 < 64 := by have := j.isLt; omega

/-- Row j / 512 and column j % 512 of a flattened position j. -/
abbrev rowOf (j : Fin 32768) : Fin 64 := ⟨j.val / 512, flat_lt j⟩
abbrev colOf (j : Fin 32768) : Fin 512 := ⟨j.val % 512, Nat.mod_lt _ (by norm_num)⟩

/-- The result: the descriptors flattened, a [32, 32768] array. -/
def G (a0 : (⟨3, ![32, 2048, 512]⟩ : Shape).Idx → EReal) (a1 a2 : (⟨2, ![64, 512]⟩ : Shape).Idx → EReal)
    (a3 : (⟨1, ![64]⟩ : Shape).Idx → EReal) : (⟨2, ![32, 32768]⟩ : Shape).Idx → EReal :=
  fun i => out (mat a2) (mat a1) (vec a3) (frames a0 (i 0)) (rowOf (i 1)) (colOf (i 1))

/-- A sum over the flattened positions is the sum over rows of the sums over columns. -/
theorem sum_flat (f : Fin 64 → Fin 512 → EReal) :
    ∑ j : Fin 32768, f (rowOf j) (colOf j) = ∑ k : Fin 64, ∑ d : Fin 512, f k d :=
  Cert.LibFlatSum.sum_flat_mul 64 512 f

end Cert.NetVlad

end
-- ==== Proof.LibColumnReads.lean ====
/-
  Layout operations and reductions along the FIRST axis of a matrix, read at an index given by coordinates, over
  arbitrary extents and (for the reductions) at the ideal values:
  • a vector [a] cast to a column [a, 1], and a column [a, 1] broadcast to [a, b];
  • a `vector.multi_reduction` over axis 0 of an [a, b] matrix, at column `t`: for `add` the sum over the rows, for
    `maximumf` the fold of `max` over the rows from the accumulator's value;
  • the host's one-operand reduce with a maximum body over the MIDDLE axis of an [a, n, b] array, at (p, q): the fold of
    `max` over that axis from the initial value.
  The row forms ([a] to [1, a], [1, b] to [a, b]) are the library's (Lib/ValueLayout.lean); these are the column forms.
-/
import Idealize.ShloMosaic.Lib.ValueIdx
import Idealize.ShloMosaic.Lib.ValueLayout
import Idealize.ShloMosaic.Lib.Pipeline.Value
import Idealize.ShloMosaic.PureOps.Ideal.Laws

namespace Cert.LibColumnReads

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column `t` of an `[a, b]` matrix with row `k` put back is `(k, t)`. -/
theorem lift_ix1 {a b : ℕ} (h : (⟨2, ![a, b]⟩ : Shape).Reduces [0] (⟨1, ![b]⟩ : Shape)) (t : Fin b) (k : Fin a) :
    h.lift (ix1 t) k = ix2 k t := by
  funext c; apply Fin.ext
  fin_cases c <;> rfl

/-- A float sum over the rows of an `[a, b]` matrix, at column `t`, is the sum of that column. -/
theorem colSum_apply {φ : FTy} {a b : ℕ} (v : FVec Ideal ⟨2, ![a, b]⟩ φ) (acc : BitVec φ.bits)
    (h : (⟨2, ![a, b]⟩ : Shape).Reduces [0] (⟨1, ![b]⟩ : Shape)) (hφ : FKind.Formats φ) (hacc : acc = FKind.add.neutral φ hφ)
    (t : Fin b) :
    multiReduction (F := Ideal) .add [0] ⟨1, ![b]⟩ v acc h hφ hacc (ix1 t) = ∑ k : Fin a, v (ix2 k t) := by
  rw [Ideal.multiReduction_add_single]
  exact Finset.sum_congr rfl fun k _ => congrArg v (lift_ix1 h t k)

/-- A float maximum over the rows of an `[a, b]` matrix, at column `t`, is the fold of `max` down that column from the
    accumulator's value. -/
theorem colMax_apply {φ : FTy} {a b : ℕ} (v : FVec Ideal ⟨2, ![a, b]⟩ φ) (acc : BitVec φ.bits)
    (h : (⟨2, ![a, b]⟩ : Shape).Reduces [0] (⟨1, ![b]⟩ : Shape)) (hφ : FKind.Formats φ) (hacc : acc = FKind.maximumf.neutral φ hφ)
    (t : Fin b) :
    multiReduction (F := Ideal) .maximumf [0] ⟨1, ![b]⟩ v acc h hφ hacc (ix1 t)
      = (Finset.univ : Finset (Fin a)).fold max (Ideal.ofBits φ acc) (fun k => v (ix2 k t)) := by
  rw [Ideal.multiReduction_maximumf_single]
  exact congrArg (fun f => Finset.fold max (Ideal.ofBits φ acc) f (Finset.univ : Finset (Fin a)))
    (funext fun k => congrArg v (lift_ix1 h t k))

/-- Position `(p, q)` of an `[a, n, b]` array with middle coordinate `k` put back is `(p, k, q)`. -/
theorem lift_mid {a n b : ℕ} (h : (⟨3, ![a, n, b]⟩ : Shape).Reduces [1] (⟨2, ![a, b]⟩ : Shape)) (p : Fin a) (q : Fin b)
    (k : Fin n) : h.lift (ix2 p q) k = ix3 p k q := by
  funext c; apply Fin.ext
  fin_cases c <;> rfl

/-- The host's reduce with a maximum body over the middle axis of an `[a, n, b]` array, at `(p, q)`, is the fold of
    `max` over that axis from the initial value. -/
theorem hostMidMax_apply {φ : FTy} {a n b : ℕ} {u : Shape} (x : FVec Ideal ⟨3, ![a, n, b]⟩ φ) (init : FVec Ideal u φ)
    (h' : (⟨3, ![a, n, b]⟩ : Shape).ReducesTo [1] (⟨2, ![a, b]⟩ : Shape))
    (h : (⟨3, ![a, n, b]⟩ : Shape).Reduces [1] (⟨2, ![a, b]⟩ : Shape)) (hu : 0 < u.numel) (p : Fin a) (q : Fin b) :
    Host.reduce (FloatOps.maximumf (F := Ideal) (φ := φ)) x init h' hu (ix2 p q)
      = (Finset.univ : Finset (Fin n)).fold max (init (Shape.Idx.first hu)) (fun k => x (ix3 p k q)) := by
  rw [Host.reduce_eq_fold_single (FloatOps.maximumf (F := Ideal) (φ := φ)) x init h' h hu]
  exact congrArg (fun f => Finset.fold max (init (Shape.Idx.first hu)) f (Finset.univ : Finset (Fin n)))
    (funext fun k => congrArg x (lift_mid h p q k))

end Cert.LibColumnReads
-- ==== Proof.RefValue.lean ====
/-
  The reference program's result is the function G of the specification.

  Stage by stage, at explicit coordinates (batch b, cluster k, frame t, feature d): the logits, their maximum over
  clusters, the exponentials, their sum, the assignment (a softmax over clusters), the residual sums against the centres,
  each cluster's row normalised, the rows flattened, the whole descriptor normalised.
-/
import proofs.«126308_j65575560675841_2_alg».proof.Proof.Gen.ReferenceIdeal.Read
import proofs.«126308_j65575560675841_2_alg».proof.Proof.Spec
import proofs.«126308_j65575560675841_2_alg».proof.Proof.LibColumnReads
import Idealize.ShloMosaic.Lib.ValueIdx
import Idealize.ShloMosaic.PureOps.Ideal.Laws

open scoped BigOperators

noncomputable section

namespace Cert.NetVlad.Ref

open Idealize.ShloMosaic Idealize.ShloMosaic.ValueIdx Cert.ReferenceIdeal Cert.ReferenceIdeal.Gen Cert.ReferenceIdeal.Read Cert.NetVlad

/-- The arrays' types: x [32, 2048, 512]; centres and weights [64, 512]; biases [64]. -/
abbrev TX : Type := (⟨3, ![32, 2048, 512]⟩ : Shape).Idx → EReal
abbrev TM : Type := (⟨2, ![64, 512]⟩ : Shape).Idx → EReal
abbrev TV : Type := (⟨1, ![64]⟩ : Shape).Idx → EReal

/-- The logit of cluster k at frame t of batch entry b. -/
theorem v4_at (x0 : TX) (x2 : TM) (x3 : TV) (b : Fin 32) (k : Fin 64) (t : Fin 2048) :
    val_main_v4 (F := Ideal) x0 x2 x3 (ix3 b k t) = logit (mat x2) (vec x3) (frames x0 b) k t := by
  rw [val_main_v4_apply, val_main_v1_apply, val_main_v0_apply, val_main_v3_apply, val_main_v2_apply]
  show (∑ d : Fin 512, x2 (lidx_main_v0 (idx_main_v1 (ix3 b k t)) d) * x0 (ridx_main_v0 (idx_main_v1 (ix3 b k t)) d))
      + x3 (idx_main_v2 (idx_main_v3 (ix3 b k t))) = _
  unfold logit
  congr 1
  · refine Finset.sum_congr rfl fun d _ => ?_
    have e1 : lidx_main_v0 (idx_main_v1 (ix3 b k t)) d = ix2 k d := by
      funext a; match a with | ⟨0, _⟩ => rfl | ⟨1, _⟩ => rfl
    have e2 : ridx_main_v0 (idx_main_v1 (ix3 b k t)) d = ix3 b t d := by
      funext a; match a with | ⟨0, _⟩ => rfl | ⟨1, _⟩ => rfl | ⟨2, _⟩ => rfl
    rw [e1, e2]
  · exact congrArg x3 (by funext a; match a with | ⟨0, _⟩ => rfl)

/-- The largest logit at frame t (from −∞, then once more against −∞). -/
theorem v7_at (x0 : TX) (x2 : TM) (x3 : TV) (b : Fin 32) (t : Fin 2048) :
    val_main_v7 (F := Ideal) x0 x2 x3 (ix2 b t) = top (mat x2) (vec x3) (frames x0 b) t := by
  rw [val_main_v7_apply, val_main_v6_apply, val_main_cst_0_apply]
  unfold val_main_v5
  rw [Cert.LibColumnReads.hostMidMax_apply (val_main_v4 (F := Ideal) x0 x2 x3) (val_main_cst (F := Ideal))
    reducesTo_S32x64x2048_S32x2048_d1 (by decide) h_S_ b t, val_main_cst_apply]
  show max (Ideal.ofBits .f32 0xFF800000#32) (Finset.fold max (Ideal.ofBits .f32 0xFF800000#32)
      (fun k => val_main_v4 (F := Ideal) x0 x2 x3 (ix3 b k t)) Finset.univ) = _
  unfold top ninf
  exact congrArg (fun f => max (Ideal.ofBits .f32 0xFF800000#32) (Finset.fold max (Ideal.ofBits .f32 0xFF800000#32) f Finset.univ))
    (funext fun k => v4_at x0 x2 x3 b k t)

/-- The exponential of the logit less the largest. -/
theorem v11_at (x0 : TX) (x2 : TM) (x3 : TV) (b : Fin 32) (k : Fin 64) (t : Fin 2048) :
    val_main_v11 (F := Ideal) x0 x2 x3 (ix3 b k t) = ex (mat x2) (vec x3) (frames x0 b) k t := by
  rw [val_main_v11_apply, val_main_v10_apply, val_main_v9_apply, val_main_v8_apply]
  have e : idx_main_v8 (idx_main_v9 (ix3 b k t)) = ix2 b t := by
    funext a; match a with | ⟨0, _⟩ => rfl | ⟨1, _⟩ => rfl
  rw [e, v4_at, v7_at]
  rfl

/-- The sum of the exponentials over the clusters. -/
theorem v12_at (x0 : TX) (x2 : TM) (x3 : TV) (b : Fin 32) (t : Fin 2048) :
    val_main_v12 (F := Ideal) x0 x2 x3 (ix2 b t) = den (mat x2) (vec x3) (frames x0 b) t := by
  rw [val_main_v12_apply, val_main_cst_1_apply]
  rw [Ideal.ofBits_def, Ideal.ofBits_zero_f32, zero_add]
  unfold den
  refine Finset.sum_congr rfl fun k _ => ?_
  have e : idx_main_v12 (ix2 b t) k = ix3 b k t := by
    funext a; match a with | ⟨0, _⟩ => rfl | ⟨1, _⟩ => rfl | ⟨2, _⟩ => rfl
  rw [e, v11_at]

/-- The assignment: the softmax over clusters. -/
theorem v15_at (x0 : TX) (x2 : TM) (x3 : TV) (b : Fin 32) (k : Fin 64) (t : Fin 2048) :
    val_main_v15 (F := Ideal) x0 x2 x3 (ix3 b k t) = asg (mat x2) (vec x3) (frames x0 b) k t := by
  rw [val_main_v15_apply, val_main_v14_apply, val_main_v13_apply]
  have e : idx_main_v13 (idx_main_v14 (ix3 b k t)) = ix2 b t := by
    funext a; match a with | ⟨0, _⟩ => rfl | ⟨1, _⟩ => rfl
  rw [e, v11_at, v12_at]
  rfl

/-- The sum of the assignments of cluster k over the frames. -/
theorem v17_at (x0 : TX) (x2 : TM) (x3 : TV) (b : Fin 32) (k : Fin 64) :
    val_main_v17 (F := Ideal) x0 x2 x3 (ix2 b k) = ∑ t : Fin 2048, asg (mat x2) (vec x3) (frames x0 b) k t := by
  rw [val_main_v17_apply, val_main_cst_2_apply]
  rw [Ideal.ofBits_def, Ideal.ofBits_zero_f32, zero_add]
  refine Finset.sum_congr rfl fun t _ => ?_
  have e : idx_main_v17 (ix2 b k) t = ix3 b k t := by
    funext a; match a with | ⟨0, _⟩ => rfl | ⟨1, _⟩ => rfl | ⟨2, _⟩ => rfl
  rw [e, v15_at]

/-- The assignment-weighted sum of the frames' feature d. -/
theorem v16_at (x0 : TX) (x2 : TM) (x3 : TV) (b : Fin 32) (k : Fin 64) (d : Fin 512) :
    val_main_v16 (F := Ideal) x0 x2 x3 (ix3 b k d)
      = ∑ t : Fin 2048, asg (mat x2) (vec x3) (frames x0 b) k t * x0 (ix3 b t d) := by
  rw [val_main_v16_apply]
  refine Finset.sum_congr rfl fun t _ => ?_
  have e1 : lidx_main_v16 (ix3 b k d) t = ix3 b k t := by
    funext a; match a with | ⟨0, _⟩ => rfl | ⟨1, _⟩ => rfl | ⟨2, _⟩ => rfl
  have e2 : ridx_main_v16 (ix3 b k d) t = ix3 b t d := by
    funext a; match a with | ⟨0, _⟩ => rfl | ⟨1, _⟩ => rfl | ⟨2, _⟩ => rfl
  rw [e1, e2, v15_at]

/-- The residual sum against the centre. -/
theorem v23_at (x0 : TX) (x1 x2 : TM) (x3 : TV) (b : Fin 32) (k : Fin 64) (d : Fin 512) :
    val_main_v23 (F := Ideal) x0 x1 x2 x3 (ix3 b k d) = vlad (mat x2) (mat x1) (vec x3) (frames x0 b) k d := by
  rw [val_main_v23_apply, val_main_v22_apply, val_main_v20_apply, val_main_v18_apply, val_main_v21_apply,
    val_main_v19_apply]
  have e1 : idx_main_v18 (idx_main_v20 (ix3 b k d)) = ix2 b k := by
    funext a; match a with | ⟨0, _⟩ => rfl | ⟨1, _⟩ => rfl
  have e2 : idx_main_v19 (idx_main_v21 (ix3 b k d)) = ix2 k d := by
    funext a; match a with | ⟨0, _⟩ => rfl | ⟨1, _⟩ => rfl
  rw [e1, e2, v16_at, v17_at]
  rfl

/-- The norm of cluster k's row, clamped below. -/
theorem v26_at (x0 : TX) (x1 x2 : TM) (x3 : TV) (b : Fin 32) (k : Fin 64) (u : Fin 1) :
    val_main_v26 (F := Ideal) x0 x1 x2 x3 (ix3 b k u) = rowNorm (mat x2) (mat x1) (vec x3) (frames x0 b) k := by
  rw [val_main_v26_apply, val_main_v24_apply, val_main_call0_v2_apply, val_main_call0_v1_apply,
    val_main_call0_cst_apply, val_main_v25_apply, val_main_cst_3_apply]
  rw [Ideal.maximumf_def, Ideal.hostUnary_sqrt_def, Ideal.ofBits_def, Ideal.ofBits_def, Ideal.ofBits_zero_f32, zero_add]
  unfold rowNorm eps
  refine congrArg (fun s => max (Ideal.sqrt s) (Ideal.ofBits .f32 0x2B8CBCCC#32)) (Finset.sum_congr rfl fun d _ => ?_)
  have e : idx_main_call0_v1 (idx_main_call0_v2 (ix3 b k u)) d = ix3 b k d := by
    funext a; match a with | ⟨0, _⟩ => rfl | ⟨1, _⟩ => rfl | ⟨2, _⟩ => rfl
  rw [e, val_main_call0_v0_apply, v23_at]
  rfl

/-- Cluster k's row normalised. -/
theorem v28_at (x0 : TX) (x1 x2 : TM) (x3 : TV) (b : Fin 32) (k : Fin 64) (d : Fin 512) :
    val_main_v28 (F := Ideal) x0 x1 x2 x3 (ix3 b k d) = vn (mat x2) (mat x1) (vec x3) (frames x0 b) k d := by
  rw [val_main_v28_apply, val_main_v27_apply]
  have e : idx_main_v27 (ix3 b k d) = ix3 b k (0 : Fin 1) := by
    funext a; match a with | ⟨0, _⟩ => rfl | ⟨1, _⟩ => rfl | ⟨2, _⟩ => rfl
  rw [e, v23_at, v26_at]
  rfl

/-- The rows flattened: position j of batch entry b is row j / 512, column j % 512. -/
theorem v29_at (x0 : TX) (x1 x2 : TM) (x3 : TV) (b : Fin 32) (j : Fin 32768) :
    val_main_v29 (F := Ideal) x0 x1 x2 x3 (ix2 b j)
      = vn (mat x2) (mat x1) (vec x3) (frames x0 b) (rowOf j) (colOf j) := by
  rw [val_main_v29_apply]
  have e : idx_main_v29 (ix2 b j) = ix3 b (rowOf j) (colOf j) := by
    have hj := j.isLt
    funext a
    match a with
    | ⟨0, _⟩ => exact Fin.ext (by show (b.val * 32768 + j.val) / 32768 = b.val; omega)
    | ⟨1, _⟩ => exact Fin.ext (by show (b.val * 32768 + j.val) / 512 % 64 = j.val / 512; omega)
    | ⟨2, _⟩ => exact Fin.ext (by show (b.val * 32768 + j.val) % 512 = j.val % 512; omega)
  rw [e, v28_at]

/-- The norm of the whole descriptor, clamped below: the sum over the flattened positions is the double sum. -/
theorem v32_at (x0 : TX) (x1 x2 : TM) (x3 : TV) (b : Fin 32) (u : Fin 1) :
    val_main_v32 (F := Ideal) x0 x1 x2 x3 (ix2 b u) = total (mat x2) (mat x1) (vec x3) (frames x0 b) := by
  rw [val_main_v32_apply, val_main_v30_apply, val_main_call1_v2_apply, val_main_call1_v1_apply,
    val_main_call1_cst_apply, val_main_v31_apply, val_main_cst_4_apply]
  rw [Ideal.maximumf_def, Ideal.hostUnary_sqrt_def, Ideal.ofBits_def, Ideal.ofBits_def, Ideal.ofBits_zero_f32, zero_add]
  unfold total eps
  rw [← sum_flat (fun k d => vn (mat x2) (mat x1) (vec x3) (frames x0 b) k d * vn (mat x2) (mat x1) (vec x3) (frames x0 b) k d)]
  refine congrArg (fun s => max (Ideal.sqrt s) (Ideal.ofBits .f32 0x2B8CBCCC#32)) (Finset.sum_congr rfl fun j _ => ?_)
  have e : idx_main_call1_v1 (idx_main_call1_v2 (ix2 b u)) j = ix2 b j := by
    funext a; match a with | ⟨0, _⟩ => rfl | ⟨1, _⟩ => rfl
  rw [e, val_main_call1_v0_apply, v29_at]
  rfl

/-- The descriptor normalised, at flattened position j. -/
theorem v34_at (x0 : TX) (x1 x2 : TM) (x3 : TV) (b : Fin 32) (j : Fin 32768) :
    val_main_v34 (F := Ideal) x0 x1 x2 x3 (ix2 b j)
      = out (mat x2) (mat x1) (vec x3) (frames x0 b) (rowOf j) (colOf j) := by
  rw [val_main_v34_apply, val_main_v33_apply]
  have e : idx_main_v33 (ix2 b j) = ix2 b (0 : Fin 1) := by
    funext a; match a with | ⟨0, _⟩ => rfl | ⟨1, _⟩ => rfl
  rw [e, v29_at, v32_at]
  rfl

/-- The reference program's result is G. -/
theorem ref_eq_G (x0 : (⟨3, ![32, 2048, 512]⟩ : Shape).Idx → EReal) (x1 x2 : (⟨2, ![64, 512]⟩ : Shape).Idx → EReal)
    (x3 : (⟨1, ![64]⟩ : Shape).Idx → EReal) :
    Cert.ReferenceIdeal.Read.val_main_v34 (F := Ideal) x0 x1 x2 x3 = Cert.NetVlad.G x0 x1 x2 x3 := by
  funext i
  obtain ⟨b, j, rfl⟩ : ∃ b j, i = ix2 b j := ⟨i 0, i 1, eq_ix2 i⟩
  exact v34_at x0 x1 x2 x3 b j

end Cert.NetVlad.Ref

end
-- ==== Proof.LibDotNT.lean ====
/-
  A product of an M×K matrix with the TRANSPOSE of an N×K matrix, read at an entry.

  With the contraction taken over the last axis of both operands, entry (p, q) of the result is the sum over k of
  l (p, k) · r (q, k). Over the extended reals, with exact operations, this holds of the matrix unit's product into a
  zero accumulator and of the host's general dot product alike, for all extents M, K, N: there is no rounding and no
  order of summation left in either.
-/
import Idealize.ShloMosaic.PureOps.Ideal.Laws
import Idealize.ShloMosaic.Lib.ValueIdx

open scoped BigOperators

noncomputable section

namespace Cert.Lib.DotNT

open Idealize.ShloMosaic Idealize.ShloMosaic.ValueIdx

variable {M K N : Nat}

/-- The left operand is read at the result's row … -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- … and at the contraction position; -/
theorem lhs_col (j : (⟨2, ![M, N]⟩ : Shape).Idx) (k : (DotDims.transposedRhs M K N).contr.Idx) :
    ((DotDims.transposedRhs M K N).lhsIdx j k 1).val = (k ⟨0, Nat.one_pos⟩).val :=
  (DotDims.transposedRhs M K N).lhsIdx_val_of_single rfl j k

/-- the right operand at the result's column, as ITS row, … -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- … and at the contraction position. -/
theorem rhs_col (j : (⟨2, ![M, N]⟩ : Shape).Idx) (k : (DotDims.transposedRhs M K N).contr.Idx) :
    ((DotDims.transposedRhs M K N).rhsIdx j k 1).val = (k ⟨0, Nat.one_pos⟩).val :=
  (DotDims.transposedRhs M K N).rhsIdx_val_of_single rfl j k

/-- The sum over the one-axis contraction shape, as a sum over `Fin K` of the operands at (p, k) and (q, k). -/
theorem sum_contr {φ₁ φ₂ : FTy} (l : FVec Ideal (⟨2, ![M, K]⟩ : Shape) φ₁) (r : FVec Ideal (⟨2, ![N, K]⟩ : Shape) φ₂)
    (p : Fin M) (q : Fin N) :
    (∑ k : (DotDims.transposedRhs M K N).contr.Idx,
        l ((DotDims.transposedRhs M K N).lhsIdx (ix2 p q) k) * r ((DotDims.transposedRhs M K N).rhsIdx (ix2 p q) k))
      = ∑ k : Fin K, l (ix2 p k) * r (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact lhs_row _ _
      | ⟨1, _⟩ => exact (lhs_col _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rhs_row _ _
      | ⟨1, _⟩ => exact (rhs_col _ _).trans hk)
  rw [el, er]

/-- The matrix unit's product into a zero accumulator, at entry (p, q). -/
theorem matmul_zero_apply {φ₁ φ₂ : FTy} (prec : Option ContractPrecision)
    (l : FVec Ideal (⟨2, ![M, K]⟩ : Shape) φ₁) (r : FVec Ideal (⟨2, ![N, K]⟩ : Shape) φ₂) (p : Fin M) (q : Fin N) :
    FloatOps.matmul (DotDims.transposedRhs M K N) prec l r (constant (⟨2, ![M, N]⟩ : Shape) .f32 0x00000000#32) (ix2 p q)
      = ∑ k : Fin K, l (ix2 p k) * r (ix2 q k) :=
  (Ideal.matmul_constant_zero_apply _ prec l r (ix2 p q)).trans (sum_contr l r p q)

/-- The host's general dot product, at entry (p, q). -/
theorem dotGeneral_apply {φ₁ φ₂ : FTy} (prec : Option ContractPrecision) (sched : HostSchedule)
    (l : FVec Ideal (⟨2, ![M, K]⟩ : Shape) φ₁) (r : FVec Ideal (⟨2, ![N, K]⟩ : Shape) φ₂) (p : Fin M) (q : Fin N) :
    FloatOps.dotGeneral (DotDims.transposedRhs M K N) prec sched l r (ix2 p q) = ∑ k : Fin K, l (ix2 p k) * r (ix2 q k) :=
  (Ideal.dotGeneral_apply _ prec sched l r (ix2 p q)).trans (sum_contr l r p q)

end Cert.Lib.DotNT

end
-- ==== Proof.LibPlainDot.lean ====
/-
  A plain matrix product read at an index.

  For the dimension numbers of an `M x K` by `K x N` product (contract the left operand's columns with the right
  operand's rows, no batch axis) the contraction index is one coordinate `k < K`, the left operand is read at
  `(row, k)` and the right at `(k, column)`. So at the ideal instance both the matrix unit's product into a zero
  accumulator and the host's `dot_general` are, at output index `(r, c)`, the sum over `k` of `l (r, k) * r (k, c)`.
-/
import Idealize.ShloMosaic.PureOps.Ideal.Laws
import Idealize.ShloMosaic.Lib.ValueIdx

noncomputable section

namespace Cert.Lib.PlainDot

open Idealize.ShloMosaic Idealize.ShloMosaic.ValueIdx

variable (M K N : ℕ)

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product, over the contracted coordinate. -/
theorem sum_plain {α : Type*} [AddCommMonoid α] (f : (⟨2, ![M, K]⟩ : Shape).Idx → (⟨2, ![K, N]⟩ : Shape).Idx → α)
    (i : (⟨2, ![M, N]⟩ : Shape).Idx) :
    ∑ q : (DotDims.plain M K N).contr.Idx, f ((DotDims.plain M K N).lhsIdx i q) ((DotDims.plain M K N).rhsIdx i q)
      = ∑ k : Fin K, f (ix2 (i 0) k) (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs0 M K N _ _
      | ⟨1, _⟩ => exact ((DotDims.plain M K N).lhsIdx_val_of_single (cl := 1) rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single (cr := 0) rfl i _).trans hk
      | ⟨1, _⟩ => exact rhs1 M K N _ _)
  rw [el, er]
  rfl

/-- The matrix unit's product into a zero accumulator, at an index. -/
theorem matmul_zero_apply {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (DotDims.plain M K N) prec l r (constant ⟨2, ![M, N]⟩ .f32 0x00000000#32) i
      = ∑ k : Fin K, l (ix2 (i 0) k) * r (ix2 k (i 1)) := by
  rw [Ideal.matmul_constant_zero_apply]
  exact sum_plain M K N (fun a b => l a * r b) i

/-- The host's `dot_general`, at an index. -/
theorem dotGeneral_apply {φ₁ φ₂ : FTy} (prec : Option ContractPrecision) (sched : HostSchedule)
    (l : FVec Ideal ⟨2, ![M, K]⟩ φ₁) (r : FVec Ideal ⟨2, ![K, N]⟩ φ₂) (i : (⟨2, ![M, N]⟩ : Shape).Idx) :
    FloatOps.dotGeneral (DotDims.plain M K N) prec sched l r i
      = ∑ k : Fin K, l (ix2 (i 0) k) * r (ix2 k (i 1)) := by
  rw [Ideal.dotGeneral_apply]
  exact sum_plain M K N (fun a b => l a * r b) i

end Cert.Lib.PlainDot

end
-- ==== Proof.LibRowReads.lean ====
/-
  Reductions along the LAST axis of a matrix, read at an index given by coordinates, over arbitrary extents and at the
  ideal values; and one layout read:
  • a `[1, 1, a]` array cast to `[a]`;
  • a `vector.multi_reduction` over axis 1 of an `[a, b]` matrix, at row `p`: for `add` the sum along the row, for
    `maximumf` the fold of `max` along the row from the accumulator's value.
  The column forms (axis 0) are in LibColumnReads; these are the row forms.
-/
import Idealize.ShloMosaic.Lib.ValueIdx
import Idealize.ShloMosaic.Lib.ValueLayout
import Idealize.ShloMosaic.Lib.Pipeline.Value
import Idealize.ShloMosaic.PureOps.Ideal.Laws

namespace Cert.LibRowReads

open Idealize.ShloMosaic Idealize.ShloMosaic.ValueIdx

variable {α : Type}

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    rw [Nat.zero_mul, Nat.zero_add])

/-- Row `p` of an `[a, b]` matrix with column `k` put back is `(p, k)`. -/
theorem lift_row {a b : ℕ} (h : (⟨2, ![a, b]⟩ : Shape).Reduces [1] (⟨1, ![a]⟩ : Shape)) (p : Fin a) (k : Fin b) :
    h.lift (ix1 p) k = ix2 p k := by
  funext c; apply Fin.ext
  fin_cases c <;> rfl

/-- A float sum along the rows' entries of an `[a, b]` matrix, at row `p`, is the sum of that row. -/
theorem rowSum_apply {φ : FTy} {a b : ℕ} (v : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction (F := Ideal) .add [1] ⟨1, ![a]⟩ v acc h hφ hacc (ix1 p) = ∑ k : Fin b, v (ix2 p k) := by
  rw [Ideal.multiReduction_add_single]
  exact Finset.sum_congr rfl fun k _ => congrArg v (lift_row h p k)

/-- A float maximum along a row of an `[a, b]` matrix, at row `p`, is the fold of `max` along that row from the
    accumulator's value. -/
theorem rowMax_apply {φ : FTy} {a b : ℕ} (v : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (p : Fin a) :
    multiReduction (F := Ideal) .maximumf [1] ⟨1, ![a]⟩ v acc h hφ hacc (ix1 p)
      = (Finset.univ : Finset (Fin b)).fold max (Ideal.ofBits φ acc) (fun k => v (ix2 p k)) := by
  rw [Ideal.multiReduction_maximumf_single]
  exact congrArg (fun f => Finset.fold max (Ideal.ofBits φ acc) f (Finset.univ : Finset (Fin b)))
    (funext fun k => congrArg v (lift_row h p k))

end Cert.LibRowReads
-- ==== Proof.KernelBody.lean ====
/-
  What the kernel's body computes for one batch entry, read entry by entry over the extended reals.

  The body is four array stages applied in turn: the logits w·Xᵀ + β (a product with the frames transposed, plus the bias
  column broadcast along the frames), a softmax down each column (over the clusters), the residual sums
  a·X − (row sums of a)·c, and the normalisation of every row by max (its Euclidean norm) ε. Each stage is read here at an
  entry (k, t) or (k, d) as the corresponding expression of the specification; the body's first payload is their composition,
  its second the row sums of squares of that, and the stored block divides by max (√ of the sum of those) ε.
-/
import proofs.«126308_j65575560675841_2_alg».proof.Proof.Gen.KernelIdeal.Skeleton
import proofs.«126308_j65575560675841_2_alg».proof.Proof.Spec
import proofs.«126308_j65575560675841_2_alg».proof.Proof.LibDotNT
import proofs.«126308_j65575560675841_2_alg».proof.Proof.LibPlainDot
import proofs.«126308_j65575560675841_2_alg».proof.Proof.LibColumnReads
import proofs.«126308_j65575560675841_2_alg».proof.Proof.LibRowReads
import proofs.«126308_j65575560675841_2_alg».proof.Proof.LibFlatSum
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.NetVlad.Body

open Cert.KernelIdeal Cert.KernelIdeal.Gen
open Idealize.ShloMosaic Idealize.ShloMosaic.ValueIdx Cert.NetVlad
open Cert.LibColumnReads Cert.LibRowReads Cert.LibFlatSum

/-! ## The four stages as arrays -/

/-- w·Xᵀ + β, a [64, 2048] array. -/
def logitsArr (A : FVec Ideal S64x512 .bf16) (Xm : FVec Ideal S2048x512 .bf16) (bc : FVec Ideal S64x1 .f32) : FVec Ideal S64x2048 .f32 :=
  addf (matmul dot_S64x512_S2048x512_S64x2048_1_1_0_0_n_n none A Xm (constant S64x2048 .f32 0x00000000#32))
    (broadcastTo S64x2048 bc broadcasts_S64x1_S64x2048)

/-- The largest entry of each column (taken from −∞, then once more against −∞). -/
def colTop (L : FVec Ideal S64x2048 .f32) : FVec Ideal S2048 .f32 :=
  have v11 : FVec Ideal S2048 .f32 := multiReduction .maximumf [0] S2048 L 0xFF800000#32 reduces_S64x2048_S2048 (.inl rfl) rfl
  have cst_9 : Ideal .f32 := Scalar.ofBits .f32 0xFF800000#32
  have v12 : FVec Ideal S2048 .f32 := broadcast S2048 cst_9
  maximumf v12 v11

/-- One value per column, repeated down the 64 rows. -/
def downRows (v : FVec Ideal S2048 .f32) : FVec Ideal S64x2048 .f32 :=
  broadcastTo S64x2048 (shapeCast S1x2048 v shapeCasts_S2048_S1x2048) broadcasts_S1x2048_S64x2048

/-- exp of each entry less its column's top. -/
def expArr (L : FVec Ideal S64x2048 .f32) : FVec Ideal S64x2048 .f32 := exp (subf L (downRows (colTop L)))

/-- The softmax of each column. -/
def softmaxArr (L : FVec Ideal S64x2048 .f32) : FVec Ideal S64x2048 .f32 :=
  divf (expArr L) (downRows (multiReduction .add [0] S2048 (expArr L) 0x00000000#32 reduces_S64x2048_S2048 (.inl rfl) rfl))

/-- a·X − (row sums of a)·c, a [64, 512] array. -/
def vladArr (a : FVec Ideal S64x2048 .f32) (Xm : FVec Ideal S2048x512 .bf16) (c3 : Vec Ideal S64x512 .f32) : FVec Ideal S64x512 .f32 :=
  have v22 : FVec Ideal S64x2048 .bf16 := truncf .bf16 a bitsLt_bf16_f32
  have v23 : FVec Ideal S64x512 .f32 := matmul dot_S64x2048_S2048x512_S64x512_1_0_0_1_n_n none v22 Xm (constant S64x512 .f32 0x00000000#32)
  have v24 : FVec Ideal S64 .f32 := multiReduction .add [1] S64 a 0x00000000#32 reduces_S64x2048_S64 (.inl rfl) rfl
  have v25 : FVec Ideal S64x1 .f32 := shapeCast S64x1 v24 shapeCasts_S64_S64x1
  have v26 : FVec Ideal S64x512 .f32 := broadcastTo S64x512 v25 broadcasts_S64x1_S64x512
  have v27 : FVec Ideal S64x512 .f32 := mulf v26 c3
  subf v23 v27

/-- Every row divided by max (its Euclidean norm) ε. -/
def rowNormalize (V : FVec Ideal S64x512 .f32) : FVec Ideal S64x512 .f32 :=
  have v29 : FVec Ideal S64x512 .f32 := mulf V V
  have v30 : FVec Ideal S64 .f32 := multiReduction .add [1] S64 v29 0x00000000#32 reduces_S64x512_S64 (.inl rfl) rfl
  have v31 : FVec Ideal S64x1 .f32 := shapeCast S64x1 v30 shapeCasts_S64_S64x1
  have v32 : FVec Ideal S64x1 .f32 := sqrt v31
  have cst_14 : Ideal .f32 := Scalar.ofBits .f32 0x2B8CBCCC#32
  have v33 : FVec Ideal S64x1 .f32 := broadcast S64x1 cst_14
  have v34 : FVec Ideal S64x1 .f32 := maximumf v32 v33
  have v35 : FVec Ideal S64x512 .f32 := broadcastTo S64x512 v34 broadcasts_S64x1_S64x512
  divf V v35

/-- The frames of one batch entry as the body uses them: the [1, 2048, 512] piece viewed [2048, 512]. -/
def framesArr (v5 : Vec Ideal S1x2048x512 .f32) : FVec Ideal S2048x512 .bf16 :=
  truncf .bf16 (shapeCast S2048x512 v5 shapeCasts_S1x2048x512_S2048x512) bitsLt_bf16_f32

/-- The body's first payload is the four stages composed. -/
theorem pay4_eq (v0 : Vec Ideal S64x512 .f32) (v1 : Vec Ideal S64x1 .f32) (v3 : Vec Ideal S64x512 .f32) (v5 : Vec Ideal S1x2048x512 .f32) :
    k0_pay4 v0 v1 v3 v5 = rowNormalize (vladArr (softmaxArr (logitsArr (k0_pay3 v0) (framesArr v5) (k0_pay2 v1))) (framesArr v5) v3) := rfl

/-- The second batch entry's payload is the same composition. -/
theorem pay7_eq (v0 : Vec Ideal S64x512 .f32) (v1 : Vec Ideal S64x1 .f32) (v3 : Vec Ideal S64x512 .f32) (v50 : Vec Ideal S1x2048x512 .f32) :
    k0_pay7 (k0_pay2 v1) v3 (k0_pay3 v0) v50 = k0_pay4 v0 v1 v3 v50 := rfl

theorem pay8_eq (v0 : Vec Ideal S64x512 .f32) (v1 : Vec Ideal S64x1 .f32) (v3 : Vec Ideal S64x512 .f32) (v50 : Vec Ideal S1x2048x512 .f32) :
    k0_pay8 (k0_pay2 v1) v3 (k0_pay3 v0) v50 = mulf (k0_pay4 v0 v1 v3 v50) (k0_pay4 v0 v1 v3 v50) := rfl

/-! ## The stages at an entry -/

theorem dotNT_eq : dot_S64x512_S2048x512_S64x2048_1_1_0_0_n_n = DotDims.transposedRhs 64 512 2048 := rfl
theorem dotPlain_eq : dot_S64x2048_S2048x512_S64x512_1_0_0_1_n_n = DotDims.plain 64 2048 512 := rfl

/-- Entry (k, t) of the logits: row k of w against frame t, plus cluster k's bias. -/
theorem logitsArr_apply (A : FVec Ideal S64x512 .bf16) (Xm : FVec Ideal S2048x512 .bf16) (bc : FVec Ideal S64x1 .f32)
    (k : Fin 64) (t : Fin 2048) :
    logitsArr A Xm bc (ix2 k t) = (∑ d : Fin 512, A (ix2 k d) * Xm (ix2 t d)) + bc (ix2 k (0 : Fin 1)) := by
  unfold logitsArr
  rw [addf_apply, dotNT_eq]
  exact congrArg₂ (· + ·) (Cert.Lib.DotNT.matmul_zero_apply none A Xm k t) (broadcastTo_a1_ab_apply bc _ k t)

theorem colTop_apply (L : FVec Ideal S64x2048 .f32) (t : Fin 2048) :
    colTop L (ix1 t) = max ninf ((Finset.univ : Finset (Fin 64)).fold max ninf (fun k => L (ix2 k t))) := by
  unfold colTop
  show max (Ideal.ofBits .f32 0xFF800000#32) (multiReduction .maximumf [0] S2048 L 0xFF800000#32 _ _ _ (ix1 t)) = _
  exact congrArg (max ninf) (colMax_apply L _ _ _ _ t)

theorem downRows_apply (v : FVec Ideal S2048 .f32) (k : Fin 64) (t : Fin 2048) : downRows v (ix2 k t) = v (ix1 t) := by
  unfold downRows
  exact (broadcastTo_1b_ab_apply _ _ k t).trans (shapeCast_a_1a_apply v _ (0 : Fin 1) t)

theorem expArr_apply (L : FVec Ideal S64x2048 .f32) (k : Fin 64) (t : Fin 2048) :
    expArr L (ix2 k t)
      = Ideal.exp (L (ix2 k t) - max ninf ((Finset.univ : Finset (Fin 64)).fold max ninf (fun k' => L (ix2 k' t)))) := by
  unfold expArr
  show Ideal.exp (L (ix2 k t) - downRows (colTop L) (ix2 k t)) = _
  rw [downRows_apply, colTop_apply]

/-- Entry (k, t) of the softmax: exp of the entry less the column's top, over the column's sum of those. -/
theorem softmaxArr_apply (L : FVec Ideal S64x2048 .f32) (k : Fin 64) (t : Fin 2048) :
    softmaxArr L (ix2 k t)
      = Ideal.div (Ideal.exp (L (ix2 k t) - max ninf ((Finset.univ : Finset (Fin 64)).fold max ninf (fun k' => L (ix2 k' t)))))
          (∑ k' : Fin 64, Ideal.exp (L (ix2 k' t) - max ninf ((Finset.univ : Finset (Fin 64)).fold max ninf (fun k'' => L (ix2 k'' t))))) := by
  unfold softmaxArr
  show Ideal.div (expArr L (ix2 k t)) (downRows _ (ix2 k t)) = _
  rw [downRows_apply, expArr_apply]
  refine congrArg (Ideal.div _) ((colSum_apply (expArr L) _ _ _ _ t).trans ?_)
  exact Finset.sum_congr rfl fun k' _ => expArr_apply L k' t

/-- Entry (k, d) of the residual sums. -/
theorem vladArr_apply (a : FVec Ideal S64x2048 .f32) (Xm : FVec Ideal S2048x512 .bf16) (c3 : Vec Ideal S64x512 .f32)
    (k : Fin 64) (d : Fin 512) :
    vladArr a Xm c3 (ix2 k d)
      = (∑ t : Fin 2048, a (ix2 k t) * Xm (ix2 t d)) - (∑ t : Fin 2048, a (ix2 k t)) * c3 (ix2 k d) := by
  unfold vladArr
  rw [dotPlain_eq]
  show matmul (DotDims.plain 64 2048 512) none (truncf .bf16 a _) Xm (constant S64x512 .f32 0x00000000#32) (ix2 k d)
      - broadcastTo S64x512 (shapeCast S64x1 (multiReduction .add [1] S64 a 0x00000000#32 _ _ _) _) _ (ix2 k d) * c3 (ix2 k d) = _
  refine congrArg₂ (· - ·) ?_ (congrArg (· * c3 (ix2 k d)) ?_)
  · exact Cert.Lib.PlainDot.matmul_zero_apply 64 2048 512 none (truncf .bf16 a _) Xm (ix2 k d)
  · exact (broadcastTo_a1_ab_apply _ _ k d).trans ((shapeCast_a_a1_apply _ _ k (0 : Fin 1)).trans (rowSum_apply a _ _ _ _ k))

/-- Entry (k, d) of the row-normalised array. -/
theorem rowNormalize_apply (V : FVec Ideal S64x512 .f32) (k : Fin 64) (d : Fin 512) :
    rowNormalize V (ix2 k d)
      = Ideal.div (V (ix2 k d)) (max (Ideal.sqrt (∑ d' : Fin 512, V (ix2 k d') * V (ix2 k d'))) eps) := by
  unfold rowNormalize
  show Ideal.div (V (ix2 k d)) (broadcastTo S64x512 (maximumf (sqrt (shapeCast S64x1 (multiReduction .add [1] S64 (mulf V V) 0x00000000#32 _ _ _) _)) (broadcast S64x1 (Scalar.ofBits .f32 0x2B8CBCCC#32 : Ideal .f32))) _ (ix2 k d)) = _
  refine congrArg (Ideal.div _) ((broadcastTo_a1_ab_apply _ _ k d).trans ?_)
  show max (Ideal.sqrt (shapeCast S64x1 (multiReduction .add [1] S64 (mulf V V) 0x00000000#32 _ _ _) _ (ix2 k (0 : Fin 1)))) eps = _
  exact congrArg (fun z => max (Ideal.sqrt z) eps)
    ((shapeCast_a_a1_apply _ _ k (0 : Fin 1)).trans (rowSum_apply (mulf V V) _ _ _ _ k))

theorem framesArr_apply (v5 : Vec Ideal S1x2048x512 .f32) (t : Fin 2048) (d : Fin 512) :
    framesArr v5 (ix2 t d) = v5 (ix3 (0 : Fin 1) t d) := by
  unfold framesArr
  rw [truncf_apply]
  exact shapeCast_1ab_ab_apply v5 _ t d

theorem pay3_apply (v0 : Vec Ideal S64x512 .f32) (i : S64x512.Idx) : k0_pay3 v0 i = v0 i := rfl

theorem pay2_eq (v1 : Vec Ideal S64x1 .f32) : k0_pay2 v1 = v1 := shapeCast_self _ _

/-! ## The payloads at an entry -/

/-- The first payload at (k, d) is the row-normalised residual of the specification. -/
theorem pay4_apply (v0 : Vec Ideal S64x512 .f32) (v1 : Vec Ideal S64x1 .f32) (v3 : Vec Ideal S64x512 .f32)
    (v5 : Vec Ideal S1x2048x512 .f32) (k : Fin 64) (d : Fin 512) :
    k0_pay4 v0 v1 v3 v5 (ix2 k d)
      = vn (fun k d => v0 (ix2 k d)) (fun k d => v3 (ix2 k d)) (fun k => v1 (ix2 k (0 : Fin 1)))
          (fun t d => v5 (ix3 (0 : Fin 1) t d)) k d := by
  rw [pay4_eq, rowNormalize_apply]
  simp only [vladArr_apply, softmaxArr_apply, logitsArr_apply, framesArr_apply, pay3_apply, pay2_eq]
  rfl

/-- The second payload at (k, ·): the sum of squares of row k of the first. -/
theorem pay5_apply (v0 : Vec Ideal S64x512 .f32) (v1 : Vec Ideal S64x1 .f32) (v3 : Vec Ideal S64x512 .f32)
    (v5 : Vec Ideal S1x2048x512 .f32) (k : Fin 64) :
    k0_pay5 v0 v1 v3 v5 (ix2 k (0 : Fin 1))
      = ∑ d : Fin 512, vn (fun k d => v0 (ix2 k d)) (fun k d => v3 (ix2 k d)) (fun k => v1 (ix2 k (0 : Fin 1)))
            (fun t d => v5 (ix3 (0 : Fin 1) t d)) k d
          * vn (fun k d => v0 (ix2 k d)) (fun k d => v3 (ix2 k d)) (fun k => v1 (ix2 k (0 : Fin 1)))
            (fun t d => v5 (ix3 (0 : Fin 1) t d)) k d := by
  unfold k0_pay5
  refine (shapeCast_a_a1_apply _ _ k (0 : Fin 1)).trans ((rowSum_apply (mulf (k0_pay4 v0 v1 v3 v5) (k0_pay4 v0 v1 v3 v5)) _ _ _ _ k).trans ?_)
  refine Finset.sum_congr rfl fun d _ => ?_
  show k0_pay4 v0 v1 v3 v5 (ix2 k d) * k0_pay4 v0 v1 v3 v5 (ix2 k d) = _
  rw [pay4_apply]

/-- The stored block at (·, k, d): the entry of the normalised rows over max (√ of the sum of the rows' sums of squares) ε. -/
theorem pay6_apply (v36 : FVec Ideal S64x512 .f32) (v39 : FVec Ideal S64x1 .f32) (u : Fin 1) (k : Fin 64) (d : Fin 512) :
    k0_pay6 v36 v39 (ix3 u k d)
      = Ideal.div (v36 (ix2 k d)) (max (Ideal.sqrt (∑ k' : Fin 64, v39 (ix2 k' (0 : Fin 1)))) eps) := by
  unfold k0_pay6
  refine (shapeCast_ab_1ab_apply _ _ u k d).trans ?_
  show Ideal.div (v36 (ix2 k d)) (broadcastTo S64x512 (maximumf (sqrt (shapeCast S1x1 (multiReduction .add [0] S1 v39 0x00000000#32 _ _ _) _)) (broadcast S1x1 (Scalar.ofBits .f32 0x2B8CBCCC#32 : Ideal .f32))) _ (ix2 k d)) = _
  refine congrArg (Ideal.div _) ((broadcastTo_11_ab_apply _ _ k d).trans ?_)
  show max (Ideal.sqrt (shapeCast S1x1 (multiReduction .add [0] S1 v39 0x00000000#32 _ _ _) _ (ix2 (0 : Fin 1) (0 : Fin 1)))) eps = _
  exact congrArg (fun z => max (Ideal.sqrt z) eps)
    ((shapeCast_a_1a_apply _ _ (0 : Fin 1) (0 : Fin 1)).trans (colSum_apply v39 _ _ _ _ (0 : Fin 1)))

/-- The block stored for one batch entry, at (·, k, d), is the specification's descriptor entry. -/
theorem outBlock_apply (v0 : Vec Ideal S64x512 .f32) (v1 : Vec Ideal S64x1 .f32) (v3 : Vec Ideal S64x512 .f32)
    (v5 : Vec Ideal S1x2048x512 .f32) (u : Fin 1) (k : Fin 64) (d : Fin 512) :
    k0_pay6 (k0_pay4 v0 v1 v3 v5) (k0_pay5 v0 v1 v3 v5) (ix3 u k d)
      = out (fun k d => v0 (ix2 k d)) (fun k d => v3 (ix2 k d)) (fun k => v1 (ix2 k (0 : Fin 1)))
          (fun t d => v5 (ix3 (0 : Fin 1) t d)) k d := by
  rw [pay6_apply, pay4_apply]
  unfold out total
  exact congrArg (fun z => Ideal.div _ (max (Ideal.sqrt z) eps)) (Finset.sum_congr rfl fun k' _ => pay5_apply v0 v1 v3 v5 k')

/-- The second batch entry's stored block is the same function of its frames. -/
theorem pay1_eq (v0 : Vec Ideal S64x512 .f32) (v1 : Vec Ideal S64x1 .f32) (v3 : Vec Ideal S64x512 .f32)
    (v50 : Vec Ideal S1x2048x512 .f32) :
    k0_pay1 (k0_pay7 (k0_pay2 v1) v3 (k0_pay3 v0) v50) (k0_pay8 (k0_pay2 v1) v3 (k0_pay3 v0) v50)
      = k0_pay6 (k0_pay4 v0 v1 v3 v50) (k0_pay5 v0 v1 v3 v50) := rfl

end Cert.NetVlad.Body

end
-- ==== Proof.KernelStores.lean ====
/-
  What the kernel leaves in its output block at one grid point, entry by entry.

  A grid point handles two batch entries. Its output block [2, 64, 512] is written by two stores, one per entry, each the
  descriptor of that entry's frames; so entry (e, k, d) of the block is the specification's descriptor entry (k, d) of the
  frames x0[e], whichever store covers it.
-/
import proofs.«126308_j65575560675841_2_alg».proof.Proof.Gen.KernelIdeal.Frame
import proofs.«126308_j65575560675841_2_alg».proof.Proof.KernelBody

open scoped BigOperators

noncomputable section

namespace Cert.NetVlad.Body

open Cert.KernelIdeal Cert.KernelIdeal.Gen
open Idealize.ShloMosaic Idealize.ShloMosaic.ValueIdx Cert.NetVlad

/-- The 32 descriptors from the arrays as the kernel's windows see them: frames, weights, the bias as a [64, 1] column,
    centres. -/
def Hk (a0 : S32x2048x512.Idx → EReal) (aw : S64x512.Idx → EReal) (ab : S64x1.Idx → EReal) (ac : S64x512.Idx → EReal) :
    S32x64x512.Idx → EReal :=
  fun i => out (fun k d => aw (ix2 k d)) (fun k d => ac (ix2 k d)) (fun k => ab (ix2 k (0 : Fin 1)))
    (fun t d => a0 (ix3 (i 0) t d)) (i 1) (i 2)

theorem hz2 : (![0, 0] : Fin 2 → Nat) = fun _ => 0 := funext fun a => by fin_cases a <;> rfl

/-- The descriptor entry as a function of the block index: what every store's payload is, at the place it is stored. -/
def blockFn (x0 : Vec Ideal S2x2048x512 .f32) (x1 : Vec Ideal S64x512 .f32) (x2 : Vec Ideal S64x1 .f32)
    (x3 : Vec Ideal S64x512 .f32) : S2x64x512.Idx → EReal :=
  fun y => out (fun k d => x1 (ix2 k d)) (fun k d => x3 (ix2 k d)) (fun k => x2 (ix2 k (0 : Fin 1)))
    (fun t d => x0 (ix3 (y 0) t d)) (y 1) (y 2)

/-- The first store's payload (batch entry 0 of the point), at the place it is stored. -/
theorem piece0 (x0 : Vec Ideal S2x2048x512 .f32) (x1 : Vec Ideal S64x512 .f32) (x2 : Vec Ideal S64x1 .f32)
    (x3 : Vec Ideal S64x512 .f32) (x : S1x64x512.Idx) :
    k0_pay6 (k0_pay4 (View.ld x1 r0_0) (View.ld x2 r0_1) (View.ld x3 r0_0) (View.ld x0 r0_2))
        (k0_pay5 (View.ld x1 r0_0) (View.ld x2 r0_1) (View.ld x3 r0_0) (View.ld x0 r0_2)) x
      = blockFn x0 x1 x2 x3 (r0_3.emb x) := by
  obtain ⟨u, k, d, rfl⟩ : ∃ (u : Fin 1) (k : Fin 64) (d : Fin 512), x = ix3 u k d := ⟨x 0, x 1, x 2, eq_ix3 x⟩
  rw [outBlock_apply]
  rw [View.ld_unit_zero (S := S64x512) hz2, View.ld_unit_zero (S := S64x512) hz2, View.ld_unit_zero (S := S64x1) hz2]
  have e : (r0_3.emb (ix3 u k d) : S2x64x512.Idx) = ix3 (0 : Fin 2) k d := by
    funext a; apply Fin.ext
    match a with
    | ⟨0, _⟩ => show 0 + 1 * u.val = 0; omega
    | ⟨1, _⟩ => show 0 + 1 * k.val = k.val; omega
    | ⟨2, _⟩ => show 0 + 1 * d.val = d.val; omega
  unfold blockFn
  rw [e]
  have e0 : ∀ (t : Fin 2048) (d' : Fin 512), View.ld x0 r0_2 (ix3 (0 : Fin 1) t d') = x0 (ix3 (0 : Fin 2) t d') := fun t d' =>
    congrArg x0 (funext fun a => Fin.ext (by
      match a with
      | ⟨0, _⟩ => rfl
      | ⟨1, _⟩ => show 0 + 1 * t.val = t.val; omega
      | ⟨2, _⟩ => show 0 + 1 * d'.val = d'.val; omega))
  simp only [e0]

/-- The second store's payload (batch entry 1 of the point), at the place it is stored. -/
theorem piece1 (x0 : Vec Ideal S2x2048x512 .f32) (x1 : Vec Ideal S64x512 .f32) (x2 : Vec Ideal S64x1 .f32)
    (x3 : Vec Ideal S64x512 .f32) (x : S1x64x512.Idx) :
    k0_pay1 (k0_pay7 (k0_pay2 (View.ld x2 r0_1)) (View.ld x3 r0_0) (k0_pay3 (View.ld x1 r0_0)) (View.ld x0 r0_4))
        (k0_pay8 (k0_pay2 (View.ld x2 r0_1)) (View.ld x3 r0_0) (k0_pay3 (View.ld x1 r0_0)) (View.ld x0 r0_4)) x
      = blockFn x0 x1 x2 x3 (r0_5.emb x) := by
  obtain ⟨u, k, d, rfl⟩ : ∃ (u : Fin 1) (k : Fin 64) (d : Fin 512), x = ix3 u k d := ⟨x 0, x 1, x 2, eq_ix3 x⟩
  rw [pay1_eq, outBlock_apply]
  rw [View.ld_unit_zero (S := S64x512) hz2, View.ld_unit_zero (S := S64x512) hz2, View.ld_unit_zero (S := S64x1) hz2]
  have e : (r0_5.emb (ix3 u k d) : S2x64x512.Idx) = ix3 (1 : Fin 2) k d := by
    funext a; apply Fin.ext
    match a with
    | ⟨0, _⟩ => show 1 + 1 * u.val = 1; omega
    | ⟨1, _⟩ => show 0 + 1 * k.val = k.val; omega
    | ⟨2, _⟩ => show 0 + 1 * d.val = d.val; omega
  unfold blockFn
  rw [e]
  have e0 : ∀ (t : Fin 2048) (d' : Fin 512), View.ld x0 r0_4 (ix3 (0 : Fin 1) t d') = x0 (ix3 (1 : Fin 2) t d') := fun t d' =>
    congrArg x0 (funext fun a => Fin.ext (by
      match a with
      | ⟨0, _⟩ => rfl
      | ⟨1, _⟩ => show 0 + 1 * t.val = t.val; omega
      | ⟨2, _⟩ => show 0 + 1 * d'.val = d'.val; omega))
  simp only [e0]

/-- The output block after the body, at any of its entries. -/
theorem out0_4_at (x0 : Vec Ideal S2x2048x512 .f32) (x1 : Vec Ideal S64x512 .f32) (x2 : Vec Ideal S64x1 .f32)
    (x3 : Vec Ideal S64x512 .f32) (y : S2x64x512.Idx) :
    out0_4 x0 x1 x2 x3 y
      = out (fun k d => x1 (ix2 k d)) (fun k d => x3 (ix2 k d)) (fun k => x2 (ix2 k (0 : Fin 1)))
          (fun t d => x0 (ix3 (y 0) t d)) (y 1) (y 2) := by
  unfold out0_4
  refine View.canon_apply_of_pieces (Val := Elt Ideal) (blockFn x0 x1 x2 x3) _ ?_ y (cover0_4 _ _ y)
  intro p hp x
  simp only [List.mem_cons, List.mem_nil_iff, or_false] at hp
  rcases hp with rfl | rfl
  · exact piece1 x0 x1 x2 x3 x
  · exact piece0 x0 x1 x2 x3 x

end Cert.NetVlad.Body

end
-- ==== Proof.KernelRun.lean ====
/-
  The kernel's run read as a value: the array the program returns is the function G of the specification.

  The bias vector is first cast to a [64, 1] column. Each of the 16 grid points holds two batch entries and writes its
  [2, 64, 512] block of the descriptors; the blocks tile the [32, 64, 512] array, which therefore ends holding all 32
  descriptors. The array is last cast to [32, 32768]: position j of a row is cluster j / 512, feature j % 512.
-/
import proofs.«126308_j65575560675841_2_alg».proof.Proof.Gen.KernelIdeal.Frame
import proofs.«126308_j65575560675841_2_alg».proof.Proof.KernelStores
import proofs.«126308_j65575560675841_2_alg».proof.Proof.Spec
import proofs.«126308_j65575560675841_2_alg».proof.Proof.LibColumnReads
import Idealize.ShloMosaic.Lib.Pipeline.Value
import Idealize.ShloMosaic.Lib.Tactic

open scoped BigOperators

noncomputable section

namespace Cert.NetVlad.Run

open Cert.KernelIdeal Cert.KernelIdeal.Gen Idealize.ShloMosaic Idealize.ShloMosaic.TcCoe Idealize.SL.Sem
open Idealize.ShloMosaic.ValueIdx Cert.NetVlad Cert.NetVlad.Body
open Idealize.ShloMosaic.Pipeline (Dat)

variable (m : (ℓ : Loc nD τ sig) → Buf (Elt Ideal) ℓ) (ρ : Dev nD → PrngReg)

/-- The bias column the region finds: the bias vector cast to [64, 1]. -/
theorem v0_eq (c : Dev nD) :
    (V m c main_v0 : S64x1.Idx → EReal) = shapeCast S64x1 (m ((c : Thread nD τ).loc main_arg3)) shapeCasts_S64_S64x1 := by
  show StableHlo.after hostOps0 (fun b => m (c, b)) (Proc.devRef .tc main_v0) = _
  after_results
  rfl

/-- The windows' block indices over the grid: the frames' and the output's blocks are the point's own, every other one
    is block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- The frames' block at point t is batch entries 2t, 2t + 1 of the array. -/
theorem iblk0_apply (c : Dev nD) (t : Fin cfg0.N) (x : S2x2048x512.Idx) (k : S32x2048x512.Idx)
    (hk0 : (k 0).val = 2 * t.val + (x 0).val) (hk1 : (k 1).val = (x 1).val) (hk2 : (k 2).val = (x 2).val) :
    (iblk m c 0 t : Vec Ideal S2x2048x512 .f32) x = (V m c main_arg0 : S32x2048x512.Idx → EReal) k := by
  obtain ⟨e0, e1, e2, -⟩ := idx_facts t
  unfold iblk
  rw [View.read_apply]
  show V m c main_arg0 _ = V m c main_arg0 _
  congr 1
  funext a
  apply Fin.ext
  match a with
  | ⟨0, _⟩ => show win0_0.index t (0 : Fin 3) * 2 + 1 * (x 0).val = (k 0).val; rw [e0, hk0]; omega
  | ⟨1, _⟩ => show win0_0.index t (1 : Fin 3) * 2048 + 1 * (x 1).val = (k 1).val; rw [e1, hk1]; omega
  | ⟨2, _⟩ => show win0_0.index t (2 : Fin 3) * 512 + 1 * (x 2).val = (k 2).val; rw [e2, hk2]; omega

/-- The weights' block at any point is the whole array. -/
theorem iblk1_apply (c : Dev nD) (t : Fin cfg0.N) (x : S64x512.Idx) :
    (iblk m c 1 t : Vec Ideal S64x512 .f32) x = (V m c main_arg2 : S64x512.Idx → EReal) x := by
  obtain ⟨-, -, -, e0, e1, -⟩ := idx_facts t
  unfold iblk
  rw [View.read_apply]
  show V m c main_arg2 _ = V m c main_arg2 _
  congr 1
  funext a
  apply Fin.ext
  match a with
  | ⟨0, _⟩ => show win0_1.index t (0 : Fin 2) * 64 + 1 * (x 0).val = (x 0).val; rw [e0]; omega
  | ⟨1, _⟩ => show win0_1.index t (1 : Fin 2) * 512 + 1 * (x 1).val = (x 1).val; rw [e1]; omega

/-- The bias column's block at any point is the whole column. -/
theorem iblk2_apply (c : Dev nD) (t : Fin cfg0.N) (x : S64x1.Idx) :
    (iblk m c 2 t : Vec Ideal S64x1 .f32) x = (V m c main_v0 : S64x1.Idx → EReal) x := by
  obtain ⟨-, -, -, -, -, e0, e1, -⟩ := idx_facts t
  unfold iblk
  rw [View.read_apply]
  show V m c main_v0 _ = V m c main_v0 _
  congr 1
  funext a
  apply Fin.ext
  match a with
  | ⟨0, _⟩ => show win0_2.index t (0 : Fin 2) * 64 + 1 * (x 0).val = (x 0).val; rw [e0]; omega
  | ⟨1, _⟩ => show win0_2.index t (1 : Fin 2) * 1 + 1 * (x 1).val = (x 1).val; rw [e1]; omega

/-- The centres' block at any point is the whole array. -/
theorem iblk3_apply (c : Dev nD) (t : Fin cfg0.N) (x : S64x512.Idx) :
    (iblk m c 3 t : Vec Ideal S64x512 .f32) x = (V m c main_arg1 : S64x512.Idx → EReal) x := by
  obtain ⟨-, -, -, -, -, -, -, e0, e1, -⟩ := idx_facts t
  unfold iblk
  rw [View.read_apply]
  show V m c main_arg1 _ = V m c main_arg1 _
  congr 1
  funext a
  apply Fin.ext
  match a with
  | ⟨0, _⟩ => show win0_3.index t (0 : Fin 2) * 64 + 1 * (x 0).val = (x 0).val; rw [e0]; omega
  | ⟨1, _⟩ => show win0_3.index t (1 : Fin 2) * 512 + 1 * (x 1).val = (x 1).val; rw [e1]; omega

/-- The descriptor entry depends on its arguments only through their values. -/
theorem out_congr {w w' c c' : Fin 64 → Fin 512 → EReal} {β β' : Fin 64 → EReal} {X X' : Fin 2048 → Fin 512 → EReal}
    {k k' : Fin 64} {d d' : Fin 512} (hw : w = w') (hc : c = c') (hβ : β = β') (hX : X = X') (hk : k = k') (hd : d = d') :
    out w c β X k d = out w' c' β' X' k' d' := by
  rw [hw, hc, hβ, hX, hk, hd]

/-- What point t writes back is block t of the descriptors of the arrays the region finds. -/
theorem flushed_eq (c : Dev nD) (t : Fin cfg0.N) :
    (dats m 0 c).flushed 4 t = ((cfg0.win 4).blk t).view.read (Elt Ideal)
      (Hk (V m c main_arg0) (V m c main_arg2) (V m c main_v0) (V m c main_arg1)) := by
  show (cfg0.win 4).cut (grid0.coords t) ((dats m 0 c).after 4 t) = _
  rw [after0_4]
  funext y
  refine (out0_4_at _ _ _ _ y).trans ?_
  rw [View.read_apply]
  unfold Hk
  obtain ⟨-, -, -, -, -, -, -, -, -, e0, e1, e2⟩ := idx_facts t
  have h0 : ((((cfg0.win 4).blk t).view.emb y) 0).val = 2 * t.val + (y 0).val := by
    show win0_4.index t (0 : Fin 3) * 2 + 1 * (y 0).val = _; rw [e0]; omega
  have h1 : ((((cfg0.win 4).blk t).view.emb y) 1).val = (y 1).val := by
    show win0_4.index t (1 : Fin 3) * 64 + 1 * (y 1).val = _; rw [e1]; omega
  have h2 : ((((cfg0.win 4).blk t).view.emb y) 2).val = (y 2).val := by
    show win0_4.index t (2 : Fin 3) * 512 + 1 * (y 2).val = _; rw [e2]; omega
  refine out_congr (funext fun k => funext fun d => iblk1_apply m c t (ix2 k d))
    (funext fun k => funext fun d => iblk3_apply m c t (ix2 k d))
    (funext fun k => iblk2_apply m c t (ix2 k (0 : Fin 1)))
    (funext fun s => funext fun d => iblk0_apply m c t (ix3 (y 0) s d) _ h0 rfl rfl)
    (Fin.ext h1.symm) (Fin.ext h2.symm)

/-- An index of the array is in point t's block iff each coordinate is in the block's range on its axis. -/
theorem mem_blk (t : Fin cfg0.N) (i : S32x64x512.Idx) :
    i ∈ ((cfg0.win 4).blk t).view.set ↔ ∀ a : Fin 3, win0_4.index t a * S2x64x512.size a ≤ (i a).val
      ∧ (i a).val < win0_4.index t a * S2x64x512.size a + S2x64x512.size a := by
  show i ∈ ((View.whole main_v1).slice (win0_4.rect t)).set ↔ _
  rw [View.set_slice_whole, Rect.mem_set_unit]
  exact Iff.rfl

/-- Every index of the array is in some point's block: batch entry b is in the block of point b / 2. -/
theorem cover (i : S32x64x512.Idx) :
    ∃ t : Fin cfg0.N, (cfg0.win 4).flush t = true ∧ i ∈ ((cfg0.win 4).blk t).view.set := by
  have hi0 : (i 0).val < 32 := (i 0).isLt
  have hi1 : (i 1).val < 64 := (i 1).isLt
  have hi2 : (i 2).val < 512 := (i 2).isLt
  have hN : cfg0.N = 16 := N_0
  obtain ⟨t, ht⟩ : ∃ t : Fin cfg0.N, t.val = (i 0).val / 2 :=
    ⟨⟨(i 0).val / 2, lt_of_lt_of_eq (by omega : (i 0).val / 2 < 16) hN.symm⟩, rfl⟩
  obtain ⟨-, -, -, -, -, -, -, -, -, e0, e1, e2⟩ := idx_facts t
  refine ⟨t, flush0_4 t, ?_⟩
  rw [mem_blk]
  intro a
  match a with
  | ⟨0, _⟩ =>
    show win0_4.index t (0 : Fin 3) * 2 ≤ (i 0).val ∧ (i 0).val < win0_4.index t (0 : Fin 3) * 2 + 2
    rw [e0, ht]; omega
  | ⟨1, _⟩ =>
    show win0_4.index t (1 : Fin 3) * 64 ≤ (i 1).val ∧ (i 1).val < win0_4.index t (1 : Fin 3) * 64 + 64
    rw [e1]; omega
  | ⟨2, _⟩ =>
    show win0_4.index t (2 : Fin 3) * 512 ≤ (i 2).val ∧ (i 2).val < win0_4.index t (2 : Fin 3) * 512 + 512
    rw [e2]; omega

/-- So the output array ends holding the descriptors of the arrays the region finds. -/
theorem final4 (c : Dev nD) :
    (dats m 0 c).arrAt 4 cfg0.N = Hk (V m c main_arg0) (V m c main_arg2) (V m c main_v0) (V m c main_arg1) :=
  (dats m 0 c).arrAt_eq_of_cover 4 (Hk (V m c main_arg0) (V m c main_arg2) (V m c main_v0) (V m c main_arg1))
    (fun t _ => flushed_eq m c t) cover

/-- The descriptors cast to [32, 32768], read at an index: row j / 512 and column j % 512 of batch entry b. -/
theorem reshape_at (a0 : S32x2048x512.Idx → EReal) (aw ac : S64x512.Idx → EReal) (a3 : S64.Idx → EReal) (i : S32x32768.Idx) :
    shapeCast S32x32768 (Hk a0 aw (shapeCast S64x1 a3 shapeCasts_S64_S64x1) ac) shapeCasts_S32x64x512_S32x32768 i
      = G a0 ac aw a3 i := by
  obtain ⟨b, j, rfl⟩ : ∃ (b : Fin 32) (j : Fin 32768), i = ix2 b j := ⟨i 0, i 1, eq_ix2 i⟩
  rw [shapeCast_apply _ shapeCasts_S32x64x512_S32x32768 (ix2 b j) (ix3 b (rowOf j) (colOf j)) (by
    rw [Shape.rowMajor_val_three, Shape.rowMajor_val_two]
    have hj := j.isLt
    show (b.val * 64 + j.val / 512) * 512 + j.val % 512 = b.val * 32768 + j.val
    omega)]
  have e : (fun k : Fin 64 => shapeCast S64x1 a3 shapeCasts_S64_S64x1 (ix2 k (0 : Fin 1))) = vec a3 :=
    funext fun k => Cert.LibColumnReads.shapeCast_a_a1_apply a3 shapeCasts_S64_S64x1 k 0
  show out (fun k d => aw (ix2 k d)) (fun k d => ac (ix2 k d))
      (fun k : Fin 64 => shapeCast S64x1 a3 shapeCasts_S64_S64x1 (ix2 k (0 : Fin 1))) (fun t d => a0 (ix3 b t d)) (rowOf j) (colOf j) = _
  rw [e]
  rfl

/-- The array the program returns: the output array cast to [32, 32768] is G of the arguments. -/
theorem tail_v2 (c : Dev nD) :
    Pipeline.afterTail₀ cfgs (dats m) 0 (V0 m) [hostOps1] c main_v2
      = G (m ((c.tc : Thread nD τ).loc main_arg0)) (m ((c.tc : Thread nD τ).loc main_arg1))
          (m ((c.tc : Thread nD τ).loc main_arg2)) (m ((c.tc : Thread nD τ).loc main_arg3)) := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = Hk (V m c main_arg0) (V m c main_arg2) (V m c main_v0) (V m c main_arg1) :=
    (Pipeline.withArrays_arr spec0 launch0.win.arr_inj c _ _ 4).trans (final4 m c)
  funext i
  show shapeCast S32x32768 (Pipeline.withArrays (cfgs 0).spec c (V0 m c) (fun w => (dats m 0 c).arrAt w (cfgs 0).N)
      (Proc.devRef .tc main_v1)) shapeCasts_S32x64x512_S32x32768 i = _
  rw [e, v0_eq, V_main_arg0, V_main_arg1, V_main_arg2]
  exact reshape_at _ _ _ _ i

/-- The run, read: the returned array is G of the arguments, the arguments unchanged. -/
theorem run : θ_run defs (onTc (τ := τ) (main (F := Ideal))) ⟨m, fun _ => 0, ρ⟩ fun r => ∀ c : Dev nD,
      r.2.mem ((c.tc : Thread nD τ).loc main_v2)
        = G (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v2 (Pipeline.mem_restRefs_of main_v2 (by decide) (by decide))).trans (tail_v2 m c),
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c)⟩)
    (run_main m ρ)

end Cert.NetVlad.Run

end
-- ==== Proof.lean ====
/-
  The certificate's five claims.

  Both idealized programs compute, over the extended reals, the same array G of the arguments (Proof/Spec.lean): a softmax
  assignment of every frame to the 64 clusters, the assignment-weighted residuals against the centres, every cluster's row
  divided by max (its Euclidean norm) ε, and the flattened descriptor divided by max (its Euclidean norm) ε. The kernel
  takes the softmax down the columns of a [clusters, frames] array, two batch entries per grid point, and normalises before
  flattening; the reference works on the whole batch, with the clusters on the middle axis, and flattens before the second
  normalisation. Over the extended reals these differ only in the order of finite sums and in where a layout change sits,
  so no finiteness of the inputs is needed: the equality uses commutativity and associativity of addition alone.
  The kernel's run read as G is Proof/KernelRun.lean (over Proof/KernelBody.lean and Proof/KernelStores.lean), the
  reference's run read as G is Proof/RefValue.lean. The three frames are the generated runs; the idealization rewrote
  nothing, so its claim is trivial.
-/
import proofs.«126308_j65575560675841_2_alg».proof.Defs
import proofs.«126308_j65575560675841_2_alg».proof.Proof.Gen.Kernel
import proofs.«126308_j65575560675841_2_alg».proof.Proof.Gen.Kernel.Skeleton
import proofs.«126308_j65575560675841_2_alg».proof.Proof.Gen.Kernel.Launch
import proofs.«126308_j65575560675841_2_alg».proof.Proof.Gen.Kernel.Points
import proofs.«126308_j65575560675841_2_alg».proof.Proof.Gen.Kernel.Frame
import proofs.«126308_j65575560675841_2_alg».proof.Proof.Gen.KernelIdeal
import proofs.«126308_j65575560675841_2_alg».proof.Proof.Gen.KernelIdeal.Skeleton
import proofs.«126308_j65575560675841_2_alg».proof.Proof.Gen.KernelIdeal.Launch
import proofs.«126308_j65575560675841_2_alg».proof.Proof.Gen.KernelIdeal.Points
import proofs.«126308_j65575560675841_2_alg».proof.Proof.Gen.KernelIdeal.Frame
import proofs.«126308_j65575560675841_2_alg».proof.Proof.Gen.ReferenceIdeal
import proofs.«126308_j65575560675841_2_alg».proof.Proof.Gen.Pre_finite_inputs
import proofs.«126308_j65575560675841_2_alg».proof.Proof.Gen.ReferenceIdeal.Run
import proofs.«126308_j65575560675841_2_alg».proof.Proof.Gen.ReferenceIdeal.Read
import proofs.«126308_j65575560675841_2_alg».proof.Proof.Spec
import proofs.«126308_j65575560675841_2_alg».proof.Proof.RefValue
import proofs.«126308_j65575560675841_2_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference has no kernel: its frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the array G of those arguments. -/
theorem algebraic : Cert.algebraic_KernelIdeal_ReferenceIdeal := by
  intro m ρ m' ρ' _ hagree
  refine ⟨fun c => Cert.NetVlad.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.NetVlad.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.NetVlad.Ref.ref_eq_G, (hagree c).1, (hagree c).2.1, (hagree c).2.2.1,
    (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
